-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x13 : Shape := ⟨2, ![1048576, 13]⟩
abbrev S1048576x30 : Shape := ⟨2, ![1048576, 30]⟩
abbrev S1048576x1 : Shape := ⟨2, ![1048576, 1]⟩
abbrev S_ : Shape := ⟨0, ![]⟩

class Facts : Prop where
  bcast_S_S1048576x13 : S_.BroadcastsInDim S1048576x13 (![] : Fin 0 → Fin S1048576x13.rank)
  reducesTo_S1048576x13_S_d0_1 : S1048576x13.ReducesTo [0, 1] S_
  h_S_ : 0 < S_.numel
  bcast_S_S1048576x30 : S_.BroadcastsInDim S1048576x30 (![] : Fin 0 → Fin S1048576x30.rank)
  reducesTo_S1048576x30_S_d0_1 : S1048576x30.ReducesTo [0, 1] S_
  bcast_S_S1048576x1 : S_.BroadcastsInDim S1048576x1 (![] : Fin 0 → Fin S1048576x1.rank)
  reducesTo_S1048576x1_S_d0_1 : S1048576x1.ReducesTo [0, 1] S_

variable [Facts]

def fn_part1 {F : FTy → Type} [FloatOps F] (main_arg4 : FVec F S1048576x1 .f32) (main_arg5 : FVec F S1048576x1 .f32) (main_v13 : IVec S_ 1) (main_v16 : IVec S1048576x1 1) : IVec S_ 1 :=
  let main_c_5 : IVec S_ 1 := constantI S_ 1 1#1
  let main_v17 : IVec S_ 1 := (fun x v => Host.reduce IntOp.andi x v reducesTo_S1048576x1_S_d0_1 h_S_) main_v16 main_c_5
  let main_v18 : IVec S_ 1 := andi main_v13 main_v17
  let main_v19 : FVec F S1048576x1 .f32 := Host.absf main_arg4
  let main_cst_6 : FVec F S_ .f32 := constant S_ .f32 0x7F800000#32
  let main_v20 : FVec F S1048576x1 .f32 := broadcastInDim S1048576x1 ![] bcast_S_S1048576x1 main_cst_6
  let main_v21 : IVec S1048576x1 1 := cmpf .olt main_v19 main_v20
  let main_c_7 : IVec S_ 1 := constantI S_ 1 1#1
  let main_v22 : IVec S_ 1 := (fun x v => Host.reduce IntOp.andi x v reducesTo_S1048576x1_S_d0_1 h_S_) main_v21 main_c_7
  let main_v23 : IVec S_ 1 := andi main_v18 main_v22
  let main_v24 : FVec F S1048576x1 .f32 := Host.absf main_arg5
  let main_cst_8 : FVec F S_ .f32 := constant S_ .f32 0x7F800000#32
  let main_v25 : FVec F S1048576x1 .f32 := broadcastInDim S1048576x1 ![] bcast_S_S1048576x1 main_cst_8
  let main_v26 : IVec S1048576x1 1 := cmpf .olt main_v24 main_v25
  let main_c_9 : IVec S_ 1 := constantI S_ 1 1#1
  let main_v27 : IVec S_ 1 := (fun x v => Host.reduce IntOp.andi x v reducesTo_S1048576x1_S_d0_1 h_S_) main_v26 main_c_9
  let main_v28 : IVec S_ 1 := andi main_v23 main_v27
  main_v28

def fn {F : FTy → Type} [FloatOps F] (main_arg0 : FVec F S1048576x13 .f32) (main_arg1 : FVec F S1048576x30 .f32) (main_arg2 : FVec F S1048576x1 .f32) (main_arg3 : FVec F S1048576x1 .f32) (main_arg4 : FVec F S1048576x1 .f32) (main_arg5 : FVec F S1048576x1 .f32) : IVec S_ 1 :=
  let main_v0 : FVec F S1048576x13 .f32 := Host.absf main_arg0
  let main_cst : FVec F S_ .f32 := constant S_ .f32 0x7F800000#32
  let main_v1 : FVec F S1048576x13 .f32 := broadcastInDim S1048576x13 ![] bcast_S_S1048576x13 main_cst
  let main_v2 : IVec S1048576x13 1 := cmpf .olt main_v0 main_v1
  let main_c : IVec S_ 1 := constantI S_ 1 1#1
  let main_v3 : IVec S_ 1 := (fun x v => Host.reduce IntOp.andi x v reducesTo_S1048576x13_S_d0_1 h_S_) main_v2 main_c
  let main_v4 : FVec F S1048576x30 .f32 := Host.absf main_arg1
  let main_cst_0 : FVec F S_ .f32 := constant S_ .f32 0x7F800000#32
  let main_v5 : FVec F S1048576x30 .f32 := broadcastInDim S1048576x30 ![] bcast_S_S1048576x30 main_cst_0
  let main_v6 : IVec S1048576x30 1 := cmpf .olt main_v4 main_v5
  let main_c_1 : IVec S_ 1 := constantI S_ 1 1#1
  let main_v7 : IVec S_ 1 := (fun x v => Host.reduce IntOp.andi x v reducesTo_S1048576x30_S_d0_1 h_S_) main_v6 main_c_1
  let main_v8 : IVec S_ 1 := andi main_v3 main_v7
  let main_v9 : FVec F S1048576x1 .f32 := Host.absf main_arg2
  let main_cst_2 : FVec F S_ .f32 := constant S_ .f32 0x7F800000#32
  let main_v10 : FVec F S1048576x1 .f32 := broadcastInDim S1048576x1 ![] bcast_S_S1048576x1 main_cst_2
  let main_v11 : IVec S1048576x1 1 := cmpf .olt main_v9 main_v10
  let main_c_3 : IVec S_ 1 := constantI S_ 1 1#1
  let main_v12 : IVec S_ 1 := (fun x v => Host.reduce IntOp.andi x v reducesTo_S1048576x1_S_d0_1 h_S_) main_v11 main_c_3
  let main_v13 : IVec S_ 1 := andi main_v8 main_v12
  let main_v14 : FVec F S1048576x1 .f32 := Host.absf main_arg3
  let main_cst_4 : FVec F S_ .f32 := constant S_ .f32 0x7F800000#32
  let main_v15 : FVec F S1048576x1 .f32 := broadcastInDim S1048576x1 ![] bcast_S_S1048576x1 main_cst_4
  let main_v16 : IVec S1048576x1 1 := cmpf .olt main_v14 main_v15
  fn_part1 (F := F) main_arg4 main_arg5 main_v13 main_v16
-- ==== Kernel.lean ====
abbrev S1048576x13 : Shape := ⟨2, ![1048576, 13]⟩
abbrev S1048576x30 : Shape := ⟨2, ![1048576, 30]⟩
abbrev S1048576x1 : Shape := ⟨2, ![1048576, 1]⟩
abbrev S1024x13 : Shape := ⟨2, ![1024, 13]⟩
abbrev S1024x30 : Shape := ⟨2, ![1024, 30]⟩
abbrev S1024x1 : Shape := ⟨2, ![1024, 1]⟩

abbrev nBuf : Space → Nat
  | .hbm => 7
  | .vmem => 14
  | .smem => 0
  | _ => 0

abbrev bufTy : (tb : Table) → Fin (tcTables nBuf tb) → BufTy
  | .hbm, ⟨0, _⟩ => ⟨S1048576x13, .f32⟩
  | .hbm, ⟨1, _⟩ => ⟨S1048576x30, .f32⟩
  | .hbm, ⟨2, _⟩ => ⟨S1048576x1, .f32⟩
  | .hbm, ⟨3, _⟩ => ⟨S1048576x1, .f32⟩
  | .hbm, ⟨4, _⟩ => ⟨S1048576x1, .f32⟩
  | .hbm, ⟨5, _⟩ => ⟨S1048576x1, .f32⟩
  | .hbm, ⟨6, _⟩ => ⟨S1048576x13, .f32⟩
  | .local _ .vmem, ⟨0, _⟩ => ⟨S1024x13, .f32⟩
  | .local _ .vmem, ⟨1, _⟩ => ⟨S1024x13, .f32⟩
  | .local _ .vmem, ⟨2, _⟩ => ⟨S1024x30, .f32⟩
  | .local _ .vmem, ⟨3, _⟩ => ⟨S1024x30, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x13, .f32⟩
  | .local _ .vmem, ⟨13, _⟩ => ⟨S1024x13, .f32⟩
  | _, _ => ⟨S1048576x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x13 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S1024x13_S1024x13_0_0 : ∀ a, (![0, 0] : Fin 2 → Nat) a + S1024x13.size a ≤ S1024x13.size a
  h_S1024x13 : 0 < S1024x13.numel
  inb_S1024x30_S1024x30_0_0 : ∀ a, (![0, 0] : Fin 2 → Nat) a + S1024x30.size a ≤ S1024x30.size a
  h_S1024x30 : 0 < S1024x30.numel
  inb_S1024x1_S1024x1_0_0 : ∀ a, (![0, 0] : Fin 2 → Nat) a + S1024x1.size a ≤ S1024x1.size a
  h_S1024x1 : 0 < S1024x1.numel
  slices_S1024x13_o0_0_S1024x1 : S1024x13.Slices ![0, 0] S1024x1
  slices_S1024x13_o0_1_S1024x1 : S1024x13.Slices ![0, 1] S1024x1
  slices_S1024x13_o0_2_S1024x1 : S1024x13.Slices ![0, 2] S1024x1
  slices_S1024x13_o0_3_S1024x1 : S1024x13.Slices ![0, 3] S1024x1
  slices_S1024x13_o0_4_S1024x1 : S1024x13.Slices ![0, 4] S1024x1
  slices_S1024x13_o0_5_S1024x1 : S1024x13.Slices ![0, 5] S1024x1
  slices_S1024x13_o0_6_S1024x1 : S1024x13.Slices ![0, 6] S1024x1
  slices_S1024x13_o0_7_S1024x1 : S1024x13.Slices ![0, 7] S1024x1
  slices_S1024x13_o0_8_S1024x1 : S1024x13.Slices ![0, 8] S1024x1
  slices_S1024x13_o0_9_S1024x1 : S1024x13.Slices ![0, 9] S1024x1
  slices_S1024x13_o0_10_S1024x1 : S1024x13.Slices ![0, 10] S1024x1
  slices_S1024x13_o0_11_S1024x1 : S1024x13.Slices ![0, 11] S1024x1
  slices_S1024x13_o0_12_S1024x1 : S1024x13.Slices ![0, 12] S1024x1
  slices_S1024x30_o0_0_S1024x1 : S1024x30.Slices ![0, 0] S1024x1
  slices_S1024x30_o0_1_S1024x1 : S1024x30.Slices ![0, 1] S1024x1
  slices_S1024x30_o0_2_S1024x1 : S1024x30.Slices ![0, 2] S1024x1
  slices_S1024x30_o0_3_S1024x1 : S1024x30.Slices ![0, 3] S1024x1
  slices_S1024x30_o0_4_S1024x1 : S1024x30.Slices ![0, 4] S1024x1
  slices_S1024x30_o0_5_S1024x1 : S1024x30.Slices ![0, 5] S1024x1
  slices_S1024x30_o0_6_S1024x1 : S1024x30.Slices ![0, 6] S1024x1
  slices_S1024x30_o0_7_S1024x1 : S1024x30.Slices ![0, 7] S1024x1
  slices_S1024x30_o0_8_S1024x1 : S1024x30.Slices ![0, 8] S1024x1
  slices_S1024x30_o0_9_S1024x1 : S1024x30.Slices ![0, 9] S1024x1
  slices_S1024x30_o0_10_S1024x1 : S1024x30.Slices ![0, 10] S1024x1
  slices_S1024x30_o0_11_S1024x1 : S1024x30.Slices ![0, 11] S1024x1
  slices_S1024x30_o0_12_S1024x1 : S1024x30.Slices ![0, 12] S1024x1
  slices_S1024x30_o0_13_S1024x1 : S1024x30.Slices ![0, 13] S1024x1
  slices_S1024x30_o0_14_S1024x1 : S1024x30.Slices ![0, 14] S1024x1
  slices_S1024x30_o0_15_S1024x1 : S1024x30.Slices ![0, 15] S1024x1
  slices_S1024x30_o0_16_S1024x1 : S1024x30.Slices ![0, 16] S1024x1
  slices_S1024x30_o0_17_S1024x1 : S1024x30.Slices ![0, 17] S1024x1
  slices_S1024x30_o0_18_S1024x1 : S1024x30.Slices ![0, 18] S1024x1
  slices_S1024x30_o0_19_S1024x1 : S1024x30.Slices ![0, 19] S1024x1
  slices_S1024x30_o0_20_S1024x1 : S1024x30.Slices ![0, 20] S1024x1
  slices_S1024x30_o0_21_S1024x1 : S1024x30.Slices ![0, 21] S1024x1
  slices_S1024x30_o0_22_S1024x1 : S1024x30.Slices ![0, 22] S1024x1
  slices_S1024x30_o0_23_S1024x1 : S1024x30.Slices ![0, 23] S1024x1
  slices_S1024x30_o0_24_S1024x1 : S1024x30.Slices ![0, 24] S1024x1
  slices_S1024x30_o0_25_S1024x1 : S1024x30.Slices ![0, 25] S1024x1
  slices_S1024x30_o0_26_S1024x1 : S1024x30.Slices ![0, 26] S1024x1
  slices_S1024x30_o0_27_S1024x1 : S1024x30.Slices ![0, 27] S1024x1
  slices_S1024x30_o0_28_S1024x1 : S1024x30.Slices ![0, 28] S1024x1
  slices_S1024x30_o0_29_S1024x1 : S1024x30.Slices ![0, 29] S1024x1
  concatenates_S1024x1_S1024x1_S1024x1_S1024x1_S1024x1_S1024x1_S1024x1_S1024x1_S1024x1_S1024x1_S1024x1_S1024x1_S1024x1_S1024x13_d1 : Shape.Concatenates [S1024x1, S1024x1, S1024x1, S1024x1, S1024x1, S1024x1, S1024x1, S1024x1, S1024x1, S1024x1, S1024x1, S1024x1, S1024x1] S1024x13 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x13.size a ≤ S1048576x13.size a
  hwx0_0 : ∀ i : grid0.Coords, EltTy.bits .f32 = 32 ∨ (Rect.block (s := S1048576x13) S1024x13.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x30.size a ≤ S1048576x30.size a
  hwx0_1 : ∀ i : grid0.Coords, EltTy.bits .f32 = 32 ∨ (Rect.block (s := S1048576x30) S1024x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1048576x1.size a
  hwx0_2 : ∀ i : grid0.Coords, EltTy.bits .f32 = 32 ∨ (Rect.block (s := S1048576x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S1048576x1.size a
  hwx0_3 : ∀ i : grid0.Coords, EltTy.bits .f32 = 32 ∨ (Rect.block (s := S1048576x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S1048576x1.size a
  hwx0_4 : ∀ i : grid0.Coords, EltTy.bits .f32 = 32 ∨ (Rect.block (s := S1048576x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S1048576x1.size a
  hwx0_5 : ∀ i : grid0.Coords, EltTy.bits .f32 = 32 ∨ (Rect.block (s := S1048576x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x13.size a ≤ S1048576x13.size a
  hwx0_6 : ∀ i : grid0.Coords, EltTy.bits .f32 = 32 ∨ (Rect.block (s := S1048576x13) S1024x13.size (cc0_transform_6 i) (hinb0_6 i)).WholeWords (EltTy.packing .f32)

variable [Facts₀]

abbrev win0_0 : Pipeline.Window sig grid0 :=
  Pipeline.Window.ofSpec (Memref.whole main_arg0) S1024x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1024x13.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1048576x13 : Shape := ⟨2, ![1048576, 13]⟩
abbrev S1048576x30 : Shape := ⟨2, ![1048576, 30]⟩
abbrev S1048576x1 : Shape := ⟨2, ![1048576, 1]⟩
abbrev S_ : Shape := ⟨0, ![]⟩

abbrev nBuf : Space → Nat
  | .hbm => 226
  | .vmem => 0
  | .smem => 0
  | _ => 0

abbrev hbmTy0_0 (i : Nat) : BufTy := match i % 128 with
  | 0 => ⟨S1048576x13, .f32⟩
  | 1 => ⟨S1048576x30, .f32⟩
  | 2 => ⟨S1048576x1, .f32⟩
  | 3 => ⟨S1048576x1, .f32⟩
  | 4 => ⟨S1048576x1, .f32⟩
  | 5 => ⟨S1048576x1, .f32⟩
  | 6 => ⟨S1048576x1, .f32⟩
  | 7 => ⟨S1048576x1, .f32⟩
  | 8 => ⟨S1048576x1, .f32⟩
  | 9 => ⟨S1048576x1, .f32⟩
  | 10 => ⟨S1048576x1, .f32⟩
  | 11 => ⟨S1048576x1, .f32⟩
  | 12 => ⟨S1048576x1, .f32⟩
  | 13 => ⟨S1048576x1, .f32⟩
  | 14 => ⟨S1048576x1, .f32⟩
  | 15 => ⟨S1048576x1, .f32⟩
  | 16 => ⟨S1048576x1, .f32⟩
  | 17 => ⟨S1048576x1, .f32⟩
  | 18 => ⟨S1048576x1, .f32⟩
  | 19 => ⟨S1048576x1, .f32⟩
  | 20 => ⟨S1048576x1, .f32⟩
  | 21 => ⟨S1048576x1, .f32⟩
  | 22 => ⟨S1048576x1, .f32⟩
  | 23 => ⟨S1048576x1, .f32⟩
  | 24 => ⟨S1048576x1, .f32⟩
  | 25 => ⟨S1048576x1, .f32⟩
  | 26 => ⟨S1048576x1, .f32⟩
  | 27 => ⟨S1048576x1, .f32⟩
  | 28 => ⟨S1048576x1, .f32⟩
  | 29 => ⟨S1048576x1, .f32⟩
  | 30 => ⟨S1048576x1, .f32⟩
  | 31 => ⟨S1048576x1, .f32⟩
  | 32 => ⟨S1048576x1, .f32⟩
  | 33 => ⟨S1048576x1, .f32⟩
  | 34 => ⟨S1048576x1, .f32⟩
  | 35 => ⟨S1048576x1, .f32⟩
  | 36 => ⟨S1048576x1, .f32⟩
  | 37 => ⟨S1048576x1, .f32⟩
  | 38 => ⟨S1048576x1, .f32⟩
  | 39 => ⟨S1048576x1, .f32⟩
  | 40 => ⟨S1048576x1, .f32⟩
  | 41 => ⟨S1048576x1, .f32⟩
  | 42 => ⟨S1048576x1, .f32⟩
  | 43 => ⟨S1048576x1, .f32⟩
  | 44 => ⟨S1048576x1, .f32⟩
  | 45 => ⟨S1048576x1, .f32⟩
  | 46 => ⟨S1048576x1, .f32⟩
  | 47 => ⟨S1048576x1, .f32⟩
  | 48 => ⟨S1048576x1, .f32⟩
  | 49 => ⟨S_, .f32⟩
  | 50 => ⟨S1048576x1, .f32⟩
  | 51 => ⟨S1048576x1, .f32⟩
  | 52 => ⟨S1048576x1, .f32⟩
  | 53 => ⟨S1048576x1, .f32⟩
  | 54 => ⟨S1048576x1, .f32⟩
  | 55 => ⟨S1048576x1, .f32⟩
  | 56 => ⟨S1048576x1, .f32⟩
  | 57 => ⟨S_, .f32⟩
  | 58 => ⟨S1048576x1, .f32⟩
  | 59 => ⟨S1048576x1, .f32⟩
  | 60 => ⟨S1048576x1, .f32⟩
  | 61 => ⟨S_, .f32⟩
  | 62 => ⟨S1048576x1, .f32⟩
  | 63 => ⟨S1048576x1, .f32⟩
  | 64 => ⟨S_, .f32⟩
  | 65 => ⟨S1048576x1, .f32⟩
  | 66 => ⟨S1048576x1, .f32⟩
  | 67 => ⟨S_, .f32⟩
  | 68 => ⟨S1048576x1, .f32⟩
  | 69 => ⟨S1048576x1, .f32⟩
  | 70 => ⟨S1048576x1, .f32⟩
  | 71 => ⟨S_, .f32⟩
  | 72 => ⟨S1048576x1, .f32⟩
  | 73 => ⟨S1048576x1, .f32⟩
  | 74 => ⟨S_, .f32⟩
  | 75 => ⟨S1048576x1, .f32⟩
  | 76 => ⟨S1048576x1, .f32⟩
  | 77 => ⟨S1048576x1, .f32⟩
  | 78 => ⟨S1048576x1, .f32⟩
  | 79 => ⟨S_, .f32⟩
  | 80 => ⟨S1048576x1, .f32⟩
  | 81 => ⟨S1048576x1, .f32⟩
  | 82 => ⟨S1048576x1, .f32⟩
  | 83 => ⟨S1048576x1, .f32⟩
  | 84 => ⟨S1048576x1, .f32⟩
  | 85 => ⟨S1048576x1, .f32⟩
  | 86 => ⟨S1048576x1, .f32⟩
  | 87 => ⟨S1048576x1, .f32⟩
  | 88 => ⟨S1048576x1, .f32⟩
  | 89 => ⟨S1048576x1, .f32⟩
  | 90 => ⟨S1048576x1, .f32⟩
  | 91 => ⟨S_, .f32⟩
  | 92 => ⟨S1048576x1, .f32⟩
  | 93 => ⟨S1048576x1, .f32⟩
  | 94 => ⟨S1048576x1, .f32⟩
  | 95 => ⟨S1048576x1, .f32⟩
  | 96 => ⟨S_, .f32⟩
  | 97 => ⟨S1048576x1, .f32⟩
  | 98 => ⟨S1048576x1, .i1⟩
  | 99 => ⟨S1048576x1, .f32⟩
  | 100 => ⟨S1048576x1, .f32⟩
  | 101 => ⟨S1048576x1, .f32⟩
  | 102 => ⟨S1048576x1, .f32⟩
  | 103 => ⟨S1048576x1, .f32⟩
  | 104 => ⟨S1048576x1, .f32⟩
  | 105 => ⟨S1048576x1, .f32⟩
  | 106 => ⟨S1048576x1, .f32⟩
  | 107 => ⟨S1048576x1, .f32⟩
  | 108 => ⟨S1048576x1, .f32⟩
  | 109 => ⟨S1048576x1, .f32⟩
  | 110 => ⟨S1048576x1, .f32⟩
  | 111 => ⟨S1048576x1, .f32⟩
  | 112 => ⟨S1048576x1, .f32⟩
  | 113 => ⟨S1048576x1, .i1⟩
  | 114 => ⟨S1048576x1, .f32⟩
  | 115 => ⟨S1048576x1, .f32⟩
  | 116 => ⟨S_, .f32⟩
  | 117 => ⟨S_, .f32⟩
  | 118 => ⟨S1048576x1, .f32⟩
  | 119 => ⟨S1048576x1, .f32⟩
  | 120 => ⟨S_, .f32⟩
  | 121 => ⟨S1048576x1, .f32⟩
  | 122 => ⟨S1048576x1, .f32⟩
  | 123 => ⟨S1048576x1, .f32⟩
  | 124 => ⟨S1048576x1, .f32⟩
  | 125 => ⟨S1048576x1, .f32⟩
  | 126 => ⟨S1048576x1, .f32⟩
  | 127 => ⟨S1048576x1, .f32⟩
  | _ => ⟨S1048576x13, .f32⟩

abbrev hbmTy0_1 (i : Nat) : BufTy := match i % 128 with
  | 0 => ⟨S1048576x1, .f32⟩
  | 1 => ⟨S1048576x1, .f32⟩
  | 2 => ⟨S_, .f32⟩
  | 3 => ⟨S1048576x1, .f32⟩
  | 4 => ⟨S1048576x1, .i1⟩
  | 5 => ⟨S_, .f32⟩
  | 6 => ⟨S_, .f32⟩
  | 7 => ⟨S1048576x1, .f32⟩
  | 8 => ⟨S1048576x1, .f32⟩
  | 9 => ⟨S1048576x1, .f32⟩
  | 10 => ⟨S1048576x1, .f32⟩
  | 11 => ⟨S1048576x1, .f32⟩
  | 12 => ⟨S1048576x1, .f32⟩
  | 13 => ⟨S1048576x1, .f32⟩
  | 14 => ⟨S1048576x1, .f32⟩
  | 15 => ⟨S1048576x1, .f32⟩
  | 16 => ⟨S1048576x1, .f32⟩
  | 17 => ⟨S1048576x1, .f32⟩
  | 18 => ⟨S1048576x1, .f32⟩
  | 19 => ⟨S_, .f32⟩
  | 20 => ⟨S1048576x1, .f32⟩
  | 21 => ⟨S1048576x1, .i1⟩
  | 22 => ⟨S_, .f32⟩
  | 23 => ⟨S_, .f32⟩
  | 24 => ⟨S1048576x1, .f32⟩
  | 25 => ⟨S1048576x1, .f32⟩
  | 26 => ⟨S1048576x1, .f32⟩
  | 27 => ⟨S1048576x1, .f32⟩
  | 28 => ⟨S1048576x1, .f32⟩
  | 29 => ⟨S1048576x1, .f32⟩
  | 30 => ⟨S1048576x1, .f32⟩
  | 31 => ⟨S1048576x1, .f32⟩
  | 32 => ⟨S1048576x1, .f32⟩
  | 33 => ⟨S1048576x1, .f32⟩
  | 34 => ⟨S1048576x1, .f32⟩
  | 35 => ⟨S1048576x1, .f32⟩
  | 36 => ⟨S_, .f32⟩
  | 37 => ⟨S1048576x1, .f32⟩
  | 38 => ⟨S1048576x1, .i1⟩
  | 39 => ⟨S_, .f32⟩
  | 40 => ⟨S_, .f32⟩
  | 41 => ⟨S1048576x1, .f32⟩
  | 42 => ⟨S1048576x1, .f32⟩
  | 43 => ⟨S1048576x1, .f32⟩
  | 44 => ⟨S1048576x1, .f32⟩
  | 45 => ⟨S1048576x1, .f32⟩
  | 46 => ⟨S1048576x1, .f32⟩
  | 47 => ⟨S1048576x1, .f32⟩
  | 48 => ⟨S1048576x1, .f32⟩
  | 49 => ⟨S1048576x1, .f32⟩
  | 50 => ⟨S1048576x1, .f32⟩
  | 51 => ⟨S1048576x1, .f32⟩
  | 52 => ⟨S1048576x1, .f32⟩
  | 53 => ⟨S1048576x1, .f32⟩
  | 54 => ⟨S1048576x1, .f32⟩
  | 55 => ⟨S1048576x1, .f32⟩
  | 56 => ⟨S1048576x1, .f32⟩
  | 57 => ⟨S1048576x1, .f32⟩
  | 58 => ⟨S1048576x1, .f32⟩
  | 59 => ⟨S_, .f32⟩
  | 60 => ⟨S1048576x1, .f32⟩
  | 61 => ⟨S1048576x1, .i1⟩
  | 62 => ⟨S_, .f32⟩
  | 63 => ⟨S_, .f32⟩
  | 64 => ⟨S1048576x1, .f32⟩
  | 65 => ⟨S1048576x1, .f32⟩
  | 66 => ⟨S1048576x1, .f32⟩
  | 67 => ⟨S1048576x1, .f32⟩
  | 68 => ⟨S1048576x1, .f32⟩
  | 69 => ⟨S_, .f32⟩
  | 70 => ⟨S1048576x1, .f32⟩
  | 71 => ⟨S1048576x1, .i1⟩
  | 72 => ⟨S_, .f32⟩
  | 73 => ⟨S_, .f32⟩
  | 74 => ⟨S1048576x1, .f32⟩
  | 75 => ⟨S1048576x1, .f32⟩
  | 76 => ⟨S1048576x1, .f32⟩
  | 77 => ⟨S1048576x1, .f32⟩
  | 78 => ⟨S1048576x1, .f32⟩
  | 79 => ⟨S_, .f32⟩
  | 80 => ⟨S1048576x1, .f32⟩
  | 81 => ⟨S1048576x1, .i1⟩
  | 82 => ⟨S_, .f32⟩
  | 83 => ⟨S_, .f32⟩
  | 84 => ⟨S1048576x1, .f32⟩
  | 85 => ⟨S1048576x1, .f32⟩
  | 86 => ⟨S1048576x1, .f32⟩
  | 87 => ⟨S1048576x1, .f32⟩
  | 88 => ⟨S1048576x1, .f32⟩
  | 89 => ⟨S1048576x1, .f32⟩
  | 90 => ⟨S_, .f32⟩
  | 91 => ⟨S1048576x1, .f32⟩
  | 92 => ⟨S1048576x1, .i1⟩
  | 93 => ⟨S_, .f32⟩
  | 94 => ⟨S_, .f32⟩
  | 95 => ⟨S1048576x1, .f32⟩
  | 96 => ⟨S1048576x1, .f32⟩
  | 97 => ⟨S1048576x13, .f32⟩
  | _ => ⟨S1048576x13, .f32⟩

abbrev hbmTy (i : Nat) : BufTy := match i / 128 with
  | 0 => hbmTy0_0 i
  | 1 => hbmTy0_1 i
  | _ => ⟨S1048576x13, .f32⟩

abbrev bufTy : (tb : Table) → Fin (tcTables nBuf tb) → BufTy
  | .hbm, ⟨i, _⟩ => hbmTy i
  | _, _ => ⟨S1048576x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_cst_0 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_1 : Ref sig .tc := ⟨.hbm, 61, rfl⟩
abbrev main_v53 : Ref sig .tc := ⟨.hbm, 62, rfl⟩
abbrev main_v54 : Ref sig .tc := ⟨.hbm, 63, rfl⟩
abbrev main_cst_2 : Ref sig .tc := ⟨.hbm, 64, rfl⟩
abbrev main_v55 : Ref sig .tc := ⟨.hbm, 65, rfl⟩
abbrev main_v56 : Ref sig .tc := ⟨.hbm, 66, rfl⟩
abbrev main_cst_3 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_4 : Ref sig .tc := ⟨.hbm, 71, rfl⟩
abbrev main_v60 : Ref sig .tc := ⟨.hbm, 72, rfl⟩
abbrev main_v61 : Ref sig .tc := ⟨.hbm, 73, rfl⟩
abbrev main_cst_5 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_6 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_7 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_8 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_cst_9 : Ref sig .tc := ⟨.hbm, 116, rfl⟩
abbrev main_call1_v0 : Ref sig .tc := ⟨.hbm, 117, rfl⟩
abbrev main_call1_v1 : Ref sig .tc := ⟨.hbm, 118, rfl⟩
abbrev main_v100 : Ref sig .tc := ⟨.hbm, 119, rfl⟩
abbrev main_cst_10 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_cst_11 : Ref sig .tc := ⟨.hbm, 130, rfl⟩
abbrev main_v110 : Ref sig .tc := ⟨.hbm, 131, rfl⟩
abbrev main_v111 : Ref sig .tc := ⟨.hbm, 132, rfl⟩
abbrev main_cst_12 : Ref sig .tc := ⟨.hbm, 133, rfl⟩
abbrev main_call2_v0 : Ref sig .tc := ⟨.hbm, 134, rfl⟩
abbrev main_call2_v1 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_cst_13 : Ref sig .tc := ⟨.hbm, 147, rfl⟩
abbrev main_v123 : Ref sig .tc := ⟨.hbm, 148, rfl⟩
abbrev main_v124 : Ref sig .tc := ⟨.hbm, 149, rfl⟩
abbrev main_cst_14 : Ref sig .tc := ⟨.hbm, 150, rfl⟩
abbrev main_call3_v0 : Ref sig .tc := ⟨.hbm, 151, rfl⟩
abbrev main_call3_v1 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_cst_15 : Ref sig .tc := ⟨.hbm, 164, rfl⟩
abbrev main_v136 : Ref sig .tc := ⟨.hbm, 165, rfl⟩
abbrev main_v137 : Ref sig .tc := ⟨.hbm, 166, rfl⟩
abbrev main_cst_16 : Ref sig .tc := ⟨.hbm, 167, rfl⟩
abbrev main_call4_v0 : Ref sig .tc := ⟨.hbm, 168, rfl⟩
abbrev main_call4_v1 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_cst_17 : Ref sig .tc := ⟨.hbm, 187, rfl⟩
abbrev main_v155 : Ref sig .tc := ⟨.hbm, 188, rfl⟩
abbrev main_v156 : Ref sig .tc := ⟨.hbm, 189, rfl⟩
abbrev main_cst_18 : Ref sig .tc := ⟨.hbm, 190, rfl⟩
abbrev main_call5_v0 : Ref sig .tc := ⟨.hbm, 191, rfl⟩
abbrev main_call5_v1 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_cst_19 : Ref sig .tc := ⟨.hbm, 197, rfl⟩
abbrev main_v161 : Ref sig .tc := ⟨.hbm, 198, rfl⟩
abbrev main_v162 : Ref sig .tc := ⟨.hbm, 199, rfl⟩
abbrev main_cst_20 : Ref sig .tc := ⟨.hbm, 200, rfl⟩
abbrev main_call6_v0 : Ref sig .tc := ⟨.hbm, 201, rfl⟩
abbrev main_call6_v1 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_cst_21 : Ref sig .tc := ⟨.hbm, 207, rfl⟩
abbrev main_v167 : Ref sig .tc := ⟨.hbm, 208, rfl⟩
abbrev main_v168 : Ref sig .tc := ⟨.hbm, 209, rfl⟩
abbrev main_cst_22 : Ref sig .tc := ⟨.hbm, 210, rfl⟩
abbrev main_call7_v0 : Ref sig .tc := ⟨.hbm, 211, rfl⟩
abbrev main_call7_v1 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_cst_23 : Ref sig .tc := ⟨.hbm, 218, rfl⟩
abbrev main_v174 : Ref sig .tc := ⟨.hbm, 219, rfl⟩
abbrev main_v175 : Ref sig .tc := ⟨.hbm, 220, rfl⟩
abbrev main_cst_24 : Ref sig .tc := ⟨.hbm, 221, rfl⟩
abbrev main_call8_v0 : Ref sig .tc := ⟨.hbm, 222, rfl⟩
abbrev main_call8_v1 : Ref sig .tc := ⟨.hbm, 223, rfl⟩
abbrev main_v176 : Ref sig .tc := ⟨.hbm, 224, rfl⟩
abbrev main_v177 : Ref sig .tc := ⟨.hbm, 225, rfl⟩

abbrev nD : Nat := 1
abbrev τ : Topo := Topo.v7x

variable {F : FTy → Type} [FloatOps F]

class Facts₀ : Prop where
  slices_S1048576x13_S1048576x1_0_0 : S1048576x13.Slices ![0, 0] S1048576x1
  slices_S1048576x13_S1048576x1_0_1 : S1048576x13.Slices ![0, 1] S1048576x1
  slices_S1048576x13_S1048576x1_0_2 : S1048576x13.Slices ![0, 2] S1048576x1
  slices_S1048576x13_S1048576x1_0_3 : S1048576x13.Slices ![0, 3] S1048576x1
  slices_S1048576x13_S1048576x1_0_4 : S1048576x13.Slices ![0, 4] S1048576x1
  slices_S1048576x13_S1048576x1_0_5 : S1048576x13.Slices ![0, 5] S1048576x1
  slices_S1048576x13_S1048576x1_0_6 : S1048576x13.Slices ![0, 6] S1048576x1
  slices_S1048576x13_S1048576x1_0_7 : S1048576x13.Slices ![0, 7] S1048576x1
  slices_S1048576x13_S1048576x1_0_8 : S1048576x13.Slices ![0, 8] S1048576x1
  slices_S1048576x13_S1048576x1_0_9 : S1048576x13.Slices ![0, 9] S1048576x1
  slices_S1048576x13_S1048576x1_0_10 : S1048576x13.Slices ![0, 10] S1048576x1
  slices_S1048576x13_S1048576x1_0_11 : S1048576x13.Slices ![0, 11] S1048576x1
  slices_S1048576x13_S1048576x1_0_12 : S1048576x13.Slices ![0, 12] S1048576x1
  slices_S1048576x30_S1048576x1_0_0 : S1048576x30.Slices ![0, 0] S1048576x1
  slices_S1048576x30_S1048576x1_0_1 : S1048576x30.Slices ![0, 1] S1048576x1
  slices_S1048576x30_S1048576x1_0_2 : S1048576x30.Slices ![0, 2] S1048576x1
  slices_S1048576x30_S1048576x1_0_3 : S1048576x30.Slices ![0, 3] S1048576x1
  slices_S1048576x30_S1048576x1_0_4 : S1048576x30.Slices ![0, 4] S1048576x1
  slices_S1048576x30_S1048576x1_0_5 : S1048576x30.Slices ![0, 5] S1048576x1
  slices_S1048576x30_S1048576x1_0_6 : S1048576x30.Slices ![0, 6] S1048576x1
  slices_S1048576x30_S1048576x1_0_7 : S1048576x30.Slices ![0, 7] S1048576x1
  slices_S1048576x30_S1048576x1_0_8 : S1048576x30.Slices ![0, 8] S1048576x1
  slices_S1048576x30_S1048576x1_0_9 : S1048576x30.Slices ![0, 9] S1048576x1
  slices_S1048576x30_S1048576x1_0_10 : S1048576x30.Slices ![0, 10] S1048576x1
  slices_S1048576x30_S1048576x1_0_11 : S1048576x30.Slices ![0, 11] S1048576x1
  slices_S1048576x30_S1048576x1_0_12 : S1048576x30.Slices ![0, 12] S1048576x1
  slices_S1048576x30_S1048576x1_0_13 : S1048576x30.Slices ![0, 13] S1048576x1
  slices_S1048576x30_S1048576x1_0_14 : S1048576x30.Slices ![0, 14] S1048576x1
  slices_S1048576x30_S1048576x1_0_15 : S1048576x30.Slices ![0, 15] S1048576x1
  slices_S1048576x30_S1048576x1_0_16 : S1048576x30.Slices ![0, 16] S1048576x1
  slices_S1048576x30_S1048576x1_0_17 : S1048576x30.Slices ![0, 17] S1048576x1
  slices_S1048576x30_S1048576x1_0_18 : S1048576x30.Slices ![0, 18] S1048576x1
  slices_S1048576x30_S1048576x1_0_19 : S1048576x30.Slices ![0, 19] S1048576x1
  slices_S1048576x30_S1048576x1_0_20 : S1048576x30.Slices ![0, 20] S1048576x1
  slices_S1048576x30_S1048576x1_0_21 : S1048576x30.Slices ![0, 21] S1048576x1
  slices_S1048576x30_S1048576x1_0_22 : S1048576x30.Slices ![0, 22] S1048576x1
  slices_S1048576x30_S1048576x1_0_23 : S1048576x30.Slices ![0, 23] S1048576x1
  slices_S1048576x30_S1048576x1_0_24 : S1048576x30.Slices ![0, 24] S1048576x1
  slices_S1048576x30_S1048576x1_0_25 : S1048576x30.Slices ![0, 25] S1048576x1
  slices_S1048576x30_S1048576x1_0_26 : S1048576x30.Slices ![0, 26] S1048576x1
  slices_S1048576x30_S1048576x1_0_27 : S1048576x30.Slices ![0, 27] S1048576x1
  slices_S1048576x30_S1048576x1_0_28 : S1048576x30.Slices ![0, 28] S1048576x1
  slices_S1048576x30_S1048576x1_0_29 : S1048576x30.Slices ![0, 29] S1048576x1
  bcast_S_S1048576x1 : S_.BroadcastsInDim S1048576x1 (![] : Fin 0 → Fin S1048576x1.rank)
  concatenates_S1048576x1_S1048576x1_S1048576x1_S1048576x1_S1048576x1_S1048576x1_S1048576x1_S1048576x1_S1048576x1_S1048576x1_S1048576x1_S1048576x1_S1048576x1_S1048576x13_d1 : Shape.Concatenates [S1048576x1, S1048576x1, S1048576x1, S1048576x1, S1048576x1, S1048576x1, S1048576x1, S1048576x1, S1048576x1, S1048576x1, S1048576x1, S1048576x1, S1048576x1] S1048576x13 1

variable [Facts₀]

class Facts : Prop extends Facts₀ where

variable [Facts]
-- ==== Proof.LibColumnSlice.lean ====
/-
  A column of a matrix, as a one-column matrix.

  `col x k` is column `k` of an `N × C` array `x` as an `N × 1` array: the unit-stride slice at offsets `(0, k)`. The
  side condition of the slice is proved here for every `k < C`, so a printed `extractStridedSlice ⟨2, ![N, 1]⟩ ![0, k] x h`
  with ANY proof `h` of it is `col x ⟨k, _⟩` by definition (`rfl`: proofs are irrelevant), whatever `N`, `C` and `k`
  are. `col_apply` reads it at an index: the entry in row `i 0` is `x (i 0, k)`. A program that slices the columns of a
  matrix argument one by one and computes with them entry by entry is read with these two: each slice is a `col` by
  unfolding, and one `simp only [col_apply]` turns every column entry into an entry of the matrix.
-/
import Idealize.ShloMosaic.Lib.ValueIdx
import Idealize.ShloMosaic.Lib.Pipeline.Value

namespace Cert.ColumnSlice

open Idealize.ShloMosaic Idealize.ShloMosaic.ValueIdx

/-- An `N × 1` block at offsets `(0, k)` fits in an `N × C` array when `k < C`. -/
theorem col_slices {N C : ℕ} (k : Fin C) :
    (⟨2, ![N, C]⟩ : Shape).Slices (![0, k.val] : Fin 2 → ℕ) ⟨2, ![N, 1]⟩ :=
  ⟨rfl, fun a => match a with
    | ⟨0, _⟩ => by show 0 + N ≤ N; omega
    | ⟨1, _⟩ => by show k.val + 1 ≤ C; have := k.isLt; omega⟩

/-- Column `k` of an `N × C` array, as an `N × 1` array. -/
def col {α : Type} {N C : ℕ} (x : (⟨2, ![N, C]⟩ : Shape).Idx → α) (k : Fin C) : (⟨2, ![N, 1]⟩ : Shape).Idx → α :=
  extractStridedSlice ⟨2, ![N, 1]⟩ (![0, k.val] : Fin 2 → ℕ) x (col_slices k)

/-- Its entry in row `i 0` is the array's entry `(i 0, k)`. -/
theorem col_apply {α : Type} {N C : ℕ} (x : (⟨2, ![N, C]⟩ : Shape).Idx → α) (k : Fin C) (i : (⟨2, ![N, 1]⟩ : Shape).Idx) :
    col x k i = x (ix2 (i 0) k) :=
  extractStridedSlice_apply (![0, k.val] : Fin 2 → ℕ) x (col_slices k) i (ix2 (i 0) k) (fun a => match a with
    | ⟨0, _⟩ => by show (i 0).val = 0 + (i 0).val; omega
    | ⟨1, _⟩ => by
        have h1 : (i 1).val < 1 := (i 1).isLt
        show k.val = k.val + (i 1).val; omega)

end Cert.ColumnSlice
-- ==== Proof.PatientRates.lean ====
/-
  One patient's rates of change, and the field of rates over a cohort.

  A patient is a state `X : Fin 13 → EReal`, thirty parameters `Q : Fin 30 → EReal` and four scalars: the insulin
  action `ins`, the carbohydrate action `cho`, and the stomach content `lq` and food taken `lf` of the last meal.
  `rate neg X Q ins cho lq lf j` is the derivative of state `j`, over the extended reals, every operation the exact
  one: sums, differences, products, the ideal quotient `Ideal.div`, `Ideal.tanh`, `max`, and a choice between two
  values on a comparison (`pick`). The negation is a PARAMETER `neg`: a vector unit has no negation and subtracts
  from zero, a host program negates, and the two are one function on the extended reals (`zero_sub_eq_neg`:
  `0 - v = -v` also at the infinities, because `0 + w = w` for every `w`). Nothing else separates the two programs,
  so no input needs to be finite.

  The parameters, by column: 0 BW, 1 KMAX, 2 B, 3 D, 4 KMIN, 5 KABS, 6 F, 7 KP1, 8 KP2, 9 KP3, 10 FSNC, 11 KE1, 12 KE2,
  13 K1, 14 K2, 15 VM0, 16 VMX, 17 KM0, 18 M1, 19 M2, 20 M4, 21 KA1, 22 KA2, 23 VI, 24 P2U, 25 IB, 26 KI, 27 M30,
  28 KD, 29 KSC.

  `field` lays the rates out over an `N × 13` array: entry `(r, j)` is rate `j` of patient `r`, whose state is row
  `r` of the `N × 13` array, whose parameters are row `r` of the `N × 30` array and whose scalars are entry `(r, 0)`
  of four `N × 1` arrays. (One column of an array as an `N × 1` array is `Cert.ColumnSlice.col`, Proof/LibColumnSlice.lean.)
-/
import Idealize.ShloMosaic.PureOps.Ideal
import Idealize.ShloMosaic.PureOps.Ideal.Laws
import Idealize.ShloMosaic.Lib.ValueIdx
import Idealize.ShloMosaic.Lib.Pipeline.Value
import proofs.«120048_j11373073400313_2_alg».proof.Proof.LibColumnSlice

noncomputable section

namespace Cert.Rates

open Idealize.ShloMosaic Idealize.ShloMosaic.ValueIdx

/-! ## The float literals of the formulas, as the extended reals their words denote -/

/-- `0`. -/
abbrev zero : EReal := Ideal.ofBits .f32 0x00000000#32
/-- `1`. -/
abbrev one : EReal := Ideal.ofBits .f32 0x3F800000#32
/-- `2`. -/
abbrev two : EReal := Ideal.ofBits .f32 0x40000000#32
/-- `5/2`. -/
abbrev fiveHalves : EReal := Ideal.ofBits .f32 0x40200000#32
/-- The float nearest `1e-7`, which keeps the meal size away from zero in a divisor. -/
abbrev tiny : EReal := Ideal.ofBits .f32 0x33D6BF95#32
/-- `1000`. -/
abbrev thousand : EReal := Ideal.ofBits .f32 0x447A0000#32
/-- `6000`. -/
abbrev sixThousand : EReal := Ideal.ofBits .f32 0x45BB8000#32

/-! ## A choice on a comparison -/

/-- `a` where `y < x`, else `b`. -/
abbrev pickGt (x y a b : EReal) : EReal := Scalar.select (Ideal.cmp .ogt x y) a b
/-- `a` where `y ≤ x`, else `b`. -/
abbrev pickGe (x y a b : EReal) : EReal := Scalar.select (Ideal.cmp .oge x y) a b

theorem pickGt_eq (x y a b : EReal) : pickGt x y a b = if y < x then a else b := by
  unfold pickGt Scalar.select Ideal.cmp
  by_cases h : y < x <;> simp [h]

theorem pickGe_eq (x y a b : EReal) : pickGe x y a b = if y ≤ x then a else b := by
  unfold pickGe Scalar.select Ideal.cmp
  by_cases h : y ≤ x <;> simp [h]

/-! ## One patient -/

/-- The size of the last meal. -/
abbrev meal (lq lf : EReal) : EReal := lq + lf

/-- The rate of gastric emptying: between `KMIN` and `KMAX` along two `tanh` ramps in the stomach content
    `X 0 + X 1`, placed at the fractions `B` and `D` of the meal, when there was a meal; `KMAX` when there was none. -/
def gut (X : Fin 13 → EReal) (Q : Fin 30 → EReal) (lq lf : EReal) : EReal :=
  pickGt (meal lq lf) zero
    (Q 4 + Ideal.div (Q 1 - Q 4) two *
      ((Ideal.tanh (Ideal.div (Ideal.div fiveHalves (one - Q 2)) (meal lq lf + tiny) * ((X 0 + X 1) - Q 2 * meal lq lf))
        - Ideal.tanh (Ideal.div (Ideal.div fiveHalves (Q 3)) (meal lq lf + tiny) * ((X 0 + X 1) - Q 3 * meal lq lf)))
        + two))
    (Q 1)

/-- The plasma insulin concentration. -/
abbrev insulin (X : Fin 13 → EReal) (Q : Fin 30 → EReal) : EReal := Ideal.div (X 5) (Q 23)

/-- The thirteen rates of change of one patient's state; `neg` is the negation in use. -/
def rate (neg : EReal → EReal) (X : Fin 13 → EReal) (Q : Fin 30 → EReal) (ins cho lq lf : EReal) : Fin 13 → EReal
  | ⟨0, _⟩ => neg (Q 1) * X 0 + cho * thousand
  | ⟨1, _⟩ => Q 1 * X 0 - X 1 * gut X Q lq lf
  | ⟨2, _⟩ => gut X Q lq lf * X 1 - Q 5 * X 2
  | ⟨3, _⟩ => pickGe (X 3) zero
      (((((max ((Q 7 - Q 8 * X 3) - Q 9 * X 8) zero + Ideal.div ((Q 6 * Q 5) * X 2) (Q 0)) - Q 10)
          - pickGt (X 3) (Q 12) (Q 11 * (X 3 - Q 12)) zero) - Q 13 * X 3) + Q 14 * X 4)
      zero
  | ⟨4, _⟩ => pickGe (X 4) zero
      ((neg (Ideal.div ((Q 15 + Q 16 * X 6) * X 4) (Q 17 + X 4)) + Q 13 * X 3) - Q 14 * X 4)
      zero
  | ⟨5, _⟩ => pickGe (X 5) zero
      (((neg (Q 19 + Q 20) * X 5 + Q 18 * X 9) + Q 21 * X 10) + Q 22 * X 11)
      zero
  | ⟨6, _⟩ => neg (Q 24) * X 6 + Q 24 * (insulin X Q - Q 25)
  | ⟨7, _⟩ => neg (Q 26) * (X 7 - insulin X Q)
  | ⟨8, _⟩ => neg (Q 26) * (X 8 - X 7)
  | ⟨9, _⟩ => pickGe (X 9) zero (neg (Q 18 + Q 27) * X 9 + Q 19 * X 5) zero
  | ⟨10, _⟩ => pickGe (X 10) zero (Ideal.div (ins * sixThousand) (Q 0) - (Q 21 + Q 28) * X 10) zero
  | ⟨11, _⟩ => pickGe (X 11) zero (Q 28 * X 10 - Q 22 * X 11) zero
  | ⟨12, _⟩ => pickGe (X 12) zero (neg (Q 29) * X 12 + Q 29 * X 3) zero
  | ⟨n + 13, h⟩ => absurd h (Nat.not_lt.2 (Nat.le_add_left _ _))

/-- Subtracting from zero is negating, on every extended real. -/
theorem zero_sub_eq_neg : (fun v : EReal => zero - v) = fun v => -v :=
  funext fun v => by
    show Ideal.ofBits .f32 0x00000000#32 - v = -v
    rw [Ideal.ofBits_zero_f32, zero_sub]

/-! ## The cohort -/

/-- Entry `(r, j)` is rate `j` of patient `r` (negation by `neg`). -/
def field {N : ℕ} (neg : EReal → EReal) (x : (⟨2, ![N, 13]⟩ : Shape).Idx → EReal) (q : (⟨2, ![N, 30]⟩ : Shape).Idx → EReal)
    (ins cho lq lf : (⟨2, ![N, 1]⟩ : Shape).Idx → EReal) : (⟨2, ![N, 13]⟩ : Shape).Idx → EReal :=
  fun i => rate neg (fun k => x (ix2 (i 0) k)) (fun k => q (ix2 (i 0) k))
    (ins (ix2 (i 0) 0)) (cho (ix2 (i 0) 0)) (lq (ix2 (i 0) 0)) (lf (ix2 (i 0) 0)) (i 1)

end Cert.Rates

end
-- ==== Proof.BlockRates.lean ====
/-
  What the kernel's body leaves in one output block: the rates of the block's 1024 patients.

  The body loads a `1024 × 13` block of states, a `1024 × 30` block of parameters and four `1024 × 1` blocks of
  scalars, computes thirteen `1024 × 1` columns and joins them side by side. So entry `(p, j)` of the output block is
  entry `(p, 0)` of column `j`, and that is rate `j` (`Cert.Rates.rate`, with the negation `v ↦ 0 - v` the vector unit
  uses) of the patient whose state and parameters are row `p` of the two blocks and whose scalars are entry `(p, 0)`
  of the four others: `column_eq` for one column at one index (every operation acts entry by entry, and a state or a
  parameter is a column `col` of its block), `block_eq` for the block.
-/
import proofs.«120048_j11373073400313_2_alg».proof.Proof.Gen.KernelIdeal.Value
import proofs.«120048_j11373073400313_2_alg».proof.Proof.PatientRates

noncomputable section

namespace Cert.KernelIdeal.Block

open Cert.KernelIdeal Cert.KernelIdeal.Gen Cert.KernelIdeal.Value Cert.Rates Cert.ColumnSlice
open Idealize.ShloMosaic Idealize.ShloMosaic.ValueIdx

/-- Column `n` of the body, at an index: rate `n` of that index's patient, read off the loaded blocks. (`Q` the
    parameters' block, `X` the states', `cho lq lf ins` the scalars' in the order the body first uses them.) -/
theorem column_eq (Q : Vec Ideal S1024x30 .f32) (X : Vec Ideal S1024x13 .f32) (cho lq lf ins : Vec Ideal S1024x1 .f32)
    (n : Fin 13) (i : S1024x1.Idx) :
    Cat6_0 Q X cho lq lf ins n i
      = rate (fun v => zero - v) (fun k => col X k i) (fun k => col Q k i) (ins i) (cho i) (lq i) (lf i) n := by
  match n with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl

/-- The index of a column under block index `(p, j)`: row `p`. -/
theorem under_eq (p : Fin 1024) (j : Fin 13) : ix6_0 (ix2 p j) = ix2 p 0 :=
  funext fun a => match a with | ⟨0, _⟩ => rfl | ⟨1, _⟩ => rfl

/-- Entry `(p, j)` of the block the body leaves is rate `j` of patient `p` of the loaded blocks. -/
theorem block_eq (Q : Vec Ideal S1024x30 .f32) (X : Vec Ideal S1024x13 .f32) (cho lq lf ins : Vec Ideal S1024x1 .f32)
    (p : Fin 1024) (j : Fin 13) :
    E6 Q X cho lq lf ins (ix2 p j)
      = rate (fun v => zero - v) (fun k => X (ix2 p k)) (fun k => Q (ix2 p k))
          (ins (ix2 p 0)) (cho (ix2 p 0)) (lq (ix2 p 0)) (lf (ix2 p 0)) j := by
  show Cat6_0 Q X cho lq lf ins (csel6_0 (ix2 p j)) (ix6_0 (ix2 p j)) = _
  rw [column_eq, under_eq]
  simp only [col_apply]

end Cert.KernelIdeal.Block

end
-- ==== Proof.CohortRates.lean ====
/-
  What the kernel's result array holds after the run: the field of rates of the whole cohort.

  The grid has 1024 points; at point `t` every window's block is block `t` along the rows and the whole width
  (`where_blocks`, decided over the grid), so row `p` of a block at point `t` is row `1024 t + p` of its array
  (`states_read` … `food_read` for the six inputs, `under_block` for the output). What point `t` writes back is the
  block the body leaves, the rates of the block's 1024 patients with the vector unit's negation (`block_eq`), which
  is block `t` of the field of rates with the host's negation (`point_eq`, `flushed_eq`: the two negations are one
  function). The 1024 blocks cover the array — row `r` lies in block `r / 1024` — so the array ends holding the
  field (`final`, `run`).
-/
import proofs.«120048_j11373073400313_2_alg».proof.Proof.Gen.KernelIdeal.Value
import proofs.«120048_j11373073400313_2_alg».proof.Proof.BlockRates

noncomputable section

namespace Cert.KernelIdeal.Whole

open Cert.KernelIdeal Cert.KernelIdeal.Gen Cert.KernelIdeal.Value Cert.KernelIdeal.Block Cert.Rates
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- At point `t` every window is at block `t` along the rows and block `0` along the columns. -/
theorem where_blocks : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- The array row under row `p` of a block at point `t`. -/
def row (t : Fin cfg0.N) (p : Fin 1024) : Fin 1048576 :=
  ⟨t.val * 1024 + p.val, by have ht := t.isLt; have hN : cfg0.N = 1024 := N_0; have hp := p.isLt; omega⟩

/-- Entry `(p, k)` of the states' block at point `t` is entry `(1024 t + p, k)` of the states. -/
theorem states_read (c : Dev nD) (t : Fin cfg0.N) (p : Fin 1024) (k : Fin 13) :
    (iblk m c 0 t : Vec Ideal S1024x13 .f32) (ix2 p k) = (V m c main_arg0 : S1048576x13.Idx → EReal) (ix2 (row t p) k) := by
  unfold iblk
  rw [View.read_apply]
  show V m c main_arg0 _ = V m c main_arg0 _
  refine congrArg (V m c main_arg0 : S1048576x13.Idx → EReal) (funext fun a => Fin.ext ?_)
  match a with
  | ⟨0, _⟩ => show win0_0.index t (0 : Fin 2) * 1024 + 1 * p.val = t.val * 1024 + p.val; rw [(where_blocks t).1.1]; omega
  | ⟨1, _⟩ => show win0_0.index t (1 : Fin 2) * 13 + 1 * k.val = k.val; rw [(where_blocks t).1.2]; omega

/-- Entry `(p, k)` of the parameters' block at point `t` is entry `(1024 t + p, k)` of the parameters. -/
theorem params_read (c : Dev nD) (t : Fin cfg0.N) (p : Fin 1024) (k : Fin 30) :
    (iblk m c 1 t : Vec Ideal S1024x30 .f32) (ix2 p k) = (V m c main_arg1 : S1048576x30.Idx → EReal) (ix2 (row t p) k) := by
  unfold iblk
  rw [View.read_apply]
  show V m c main_arg1 _ = V m c main_arg1 _
  refine congrArg (V m c main_arg1 : S1048576x30.Idx → EReal) (funext fun a => Fin.ext ?_)
  match a with
  | ⟨0, _⟩ => show win0_1.index t (0 : Fin 2) * 1024 + 1 * p.val = t.val * 1024 + p.val; rw [(where_blocks t).2.1.1]; omega
  | ⟨1, _⟩ => show win0_1.index t (1 : Fin 2) * 30 + 1 * k.val = k.val; rw [(where_blocks t).2.1.2]; omega

/-- Entry `(p, 0)` of the insulin actions' block at point `t` is entry `(1024 t + p, 0)` of the insulin actions. -/
theorem ins_read (c : Dev nD) (t : Fin cfg0.N) (p : Fin 1024) (k : Fin 1) :
    (iblk m c 2 t : Vec Ideal S1024x1 .f32) (ix2 p k) = (V m c main_arg2 : S1048576x1.Idx → EReal) (ix2 (row t p) k) := by
  unfold iblk
  rw [View.read_apply]
  show V m c main_arg2 _ = V m c main_arg2 _
  refine congrArg (V m c main_arg2 : S1048576x1.Idx → EReal) (funext fun a => Fin.ext ?_)
  match a with
  | ⟨0, _⟩ => show win0_2.index t (0 : Fin 2) * 1024 + 1 * p.val = t.val * 1024 + p.val; rw [(where_blocks t).2.2.1.1]; omega
  | ⟨1, _⟩ => show win0_2.index t (1 : Fin 2) * 1 + 1 * k.val = k.val; rw [(where_blocks t).2.2.1.2]; omega

/-- The same for the carbohydrate actions, -/
theorem cho_read (c : Dev nD) (t : Fin cfg0.N) (p : Fin 1024) (k : Fin 1) :
    (iblk m c 3 t : Vec Ideal S1024x1 .f32) (ix2 p k) = (V m c main_arg3 : S1048576x1.Idx → EReal) (ix2 (row t p) k) := by
  unfold iblk
  rw [View.read_apply]
  show V m c main_arg3 _ = V m c main_arg3 _
  refine congrArg (V m c main_arg3 : S1048576x1.Idx → EReal) (funext fun a => Fin.ext ?_)
  match a with
  | ⟨0, _⟩ => show win0_3.index t (0 : Fin 2) * 1024 + 1 * p.val = t.val * 1024 + p.val; rw [(where_blocks t).2.2.2.1.1]; omega
  | ⟨1, _⟩ => show win0_3.index t (1 : Fin 2) * 1 + 1 * k.val = k.val; rw [(where_blocks t).2.2.2.1.2]; omega

/-- the stomach contents of the last meal, -/
theorem stomach_read (c : Dev nD) (t : Fin cfg0.N) (p : Fin 1024) (k : Fin 1) :
    (iblk m c 4 t : Vec Ideal S1024x1 .f32) (ix2 p k) = (V m c main_arg4 : S1048576x1.Idx → EReal) (ix2 (row t p) k) := by
  unfold iblk
  rw [View.read_apply]
  show V m c main_arg4 _ = V m c main_arg4 _
  refine congrArg (V m c main_arg4 : S1048576x1.Idx → EReal) (funext fun a => Fin.ext ?_)
  match a with
  | ⟨0, _⟩ => show win0_4.index t (0 : Fin 2) * 1024 + 1 * p.val = t.val * 1024 + p.val; rw [(where_blocks t).2.2.2.2.1.1]; omega
  | ⟨1, _⟩ => show win0_4.index t (1 : Fin 2) * 1 + 1 * k.val = k.val; rw [(where_blocks t).2.2.2.2.1.2]; omega

/-- and the food taken at it. -/
theorem food_read (c : Dev nD) (t : Fin cfg0.N) (p : Fin 1024) (k : Fin 1) :
    (iblk m c 5 t : Vec Ideal S1024x1 .f32) (ix2 p k) = (V m c main_arg5 : S1048576x1.Idx → EReal) (ix2 (row t p) k) := by
  unfold iblk
  rw [View.read_apply]
  show V m c main_arg5 _ = V m c main_arg5 _
  refine congrArg (V m c main_arg5 : S1048576x1.Idx → EReal) (funext fun a => Fin.ext ?_)
  match a with
  | ⟨0, _⟩ => show win0_5.index t (0 : Fin 2) * 1024 + 1 * p.val = t.val * 1024 + p.val; rw [(where_blocks t).2.2.2.2.2.1.1]; omega
  | ⟨1, _⟩ => show win0_5.index t (1 : Fin 2) * 1 + 1 * k.val = k.val; rw [(where_blocks t).2.2.2.2.2.1.2]; omega

/-- The array index under index `(p, j)` of the output's block at point `t`: `(1024 t + p, j)`. -/
theorem under_block (t : Fin cfg0.N) (p : Fin 1024) (j : Fin 13) :
    (((cfg0.win 6).blk t).view.emb (ix2 p j) : S1048576x13.Idx) = ix2 (row t p) j := by
  refine funext fun a => Fin.ext ?_
  match a with
  | ⟨0, _⟩ => show win0_6.index t (0 : Fin 2) * 1024 + 1 * p.val = t.val * 1024 + p.val; rw [(where_blocks t).2.2.2.2.2.2.1]; omega
  | ⟨1, _⟩ => show win0_6.index t (1 : Fin 2) * 13 + 1 * j.val = j.val; rw [(where_blocks t).2.2.2.2.2.2.2]; omega

/-- The cohort's field of rates, of the arrays as the region finds them. -/
abbrev cohort (c : Dev nD) : S1048576x13.Idx → EReal :=
  field (fun v => -v) (V m c main_arg0) (V m c main_arg1) (V m c main_arg2) (V m c main_arg3) (V m c main_arg4) (V m c main_arg5)

/-- Entry `(p, j)` of what the body leaves at point `t` is rate `j` of patient `1024 t + p` of the cohort. -/
theorem point_eq (c : Dev nD) (t : Fin cfg0.N) (p : Fin 1024) (j : Fin 13) :
    E6 (iblk m c 1 t) (iblk m c 0 t) (iblk m c 3 t) (iblk m c 4 t) (iblk m c 5 t) (iblk m c 2 t) (ix2 p j)
      = cohort m c (ix2 (row t p) j) := by
  refine (block_eq (iblk m c 1 t) (iblk m c 0 t) (iblk m c 3 t) (iblk m c 4 t) (iblk m c 5 t) (iblk m c 2 t) p j).trans ?_
  show rate (fun v => zero - v) (fun k => (iblk m c 0 t : Vec Ideal S1024x13 .f32) (ix2 p k))
      (fun k => (iblk m c 1 t : Vec Ideal S1024x30 .f32) (ix2 p k))
      ((iblk m c 2 t : Vec Ideal S1024x1 .f32) (ix2 p 0)) ((iblk m c 3 t : Vec Ideal S1024x1 .f32) (ix2 p 0))
      ((iblk m c 4 t : Vec Ideal S1024x1 .f32) (ix2 p 0)) ((iblk m c 5 t : Vec Ideal S1024x1 .f32) (ix2 p 0)) j
    = rate (fun v => -v) (fun k => (V m c main_arg0 : S1048576x13.Idx → EReal) (ix2 (row t p) k))
      (fun k => (V m c main_arg1 : S1048576x30.Idx → EReal) (ix2 (row t p) k))
      ((V m c main_arg2 : S1048576x1.Idx → EReal) (ix2 (row t p) 0)) ((V m c main_arg3 : S1048576x1.Idx → EReal) (ix2 (row t p) 0))
      ((V m c main_arg4 : S1048576x1.Idx → EReal) (ix2 (row t p) 0)) ((V m c main_arg5 : S1048576x1.Idx → EReal) (ix2 (row t p) 0)) j
  rw [zero_sub_eq_neg, ins_read m c t p 0, cho_read m c t p 0, stomach_read m c t p 0, food_read m c t p 0,
    funext (states_read m c t p), funext (params_read m c t p)]

/-- What point `t` writes back is block `t` of the cohort's field of rates. -/
theorem flushed_eq (c : Dev nD) (t : Fin cfg0.N) :
    (dats m 0 c).flushed 6 t = ((cfg0.win 6).blk t).view.read (Elt Ideal) (cohort m c) := by
  rw [flushed6]
  unfold out0_6
  rw [funext (canon6_eq _ _ _ _ _ _)]
  simp only [View.ld_unit_zero (S := S1024x13) hz, View.ld_unit_zero (S := S1024x30) hz, View.ld_unit_zero (S := S1024x1) hz]
  funext y
  obtain ⟨p, j, rfl⟩ : ∃ (p : Fin 1024) (j : Fin 13), y = ix2 p j := ⟨y 0, y 1, eq_ix2 y⟩
  show E6 (iblk m c 1 t) (iblk m c 0 t) (iblk m c 3 t) (iblk m c 4 t) (iblk m c 5 t) (iblk m c 2 t) (ix2 p j)
    = cohort m c (((cfg0.win 6).blk t).view.emb (ix2 p j))
  rw [under_block]
  exact point_eq m c t p j

/-- An index of the array is in point `t`'s block iff each coordinate is in the block's range on its axis. -/
theorem mem_block (t : Fin cfg0.N) (i : S1048576x13.Idx) :
    i ∈ ((cfg0.win 6).blk t).view.set ↔ ∀ a : Fin 2, win0_6.index t a * S1024x13.size a ≤ (i a).val
      ∧ (i a).val < win0_6.index t a * S1024x13.size a + S1024x13.size a := by
  show i ∈ ((View.whole main_v0).slice (win0_6.rect t)).set ↔ _
  rw [View.set_slice_whole, Rect.mem_set_unit]
  exact Iff.rfl

/-- Every index of the array is in some point's block: row `r` in block `r / 1024`. -/
theorem covered (i : S1048576x13.Idx) :
    ∃ t : Fin cfg0.N, (cfg0.win 6).flush t = true ∧ i ∈ ((cfg0.win 6).blk t).view.set := by
  have hi0 : (i 0).val < 1048576 := (i 0).isLt
  have hi1 : (i 1).val < 13 := (i 1).isLt
  have hN : cfg0.N = 1024 := N_0
  have hlt : (i 0).val / 1024 < cfg0.N := by omega
  refine ⟨⟨(i 0).val / 1024, hlt⟩, flush0_6 _, ?_⟩
  rw [mem_block]
  have e0 : win0_6.index ⟨(i 0).val / 1024, hlt⟩ (0 : Fin 2) = (i 0).val / 1024 := (where_blocks _).2.2.2.2.2.2.1
  have e1 : win0_6.index ⟨(i 0).val / 1024, hlt⟩ (1 : Fin 2) = 0 := (where_blocks _).2.2.2.2.2.2.2
  intro a
  match a with
  | ⟨0, _⟩ =>
    show win0_6.index ⟨(i 0).val / 1024, hlt⟩ (0 : Fin 2) * 1024 ≤ (i 0).val
      ∧ (i 0).val < win0_6.index ⟨(i 0).val / 1024, hlt⟩ (0 : Fin 2) * 1024 + 1024
    rw [e0]; omega
  | ⟨1, _⟩ =>
    show win0_6.index ⟨(i 0).val / 1024, hlt⟩ (1 : Fin 2) * 13 ≤ (i 1).val
      ∧ (i 1).val < win0_6.index ⟨(i 0).val / 1024, hlt⟩ (1 : Fin 2) * 13 + 13
    rw [e1]; omega

/-- The result array after the run is the cohort's field of rates. -/
theorem final (c : Dev nD) : (dats m 0 c).arrAt 6 cfg0.N = cohort m c :=
  (dats m 0 c).arrAt_eq_of_cover 6 (cohort m c) (fun t _ => flushed_eq m c t) covered

/-- The run, read: the result array at the field of rates of the arguments, the arguments unchanged. -/
theorem run : θ_run defs (onTc (τ := τ) (main (F := Ideal))) ⟨m, fun _ => 0, ρ⟩ fun r => ∀ c : Dev nD,
      r.2.mem ((c : Thread nD τ).loc main_v0) = cohort m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Whole

end
-- ==== Proof.HostRun.lean ====
/-
  The reference's run, read window by window: its result is the field of rates of its arguments.

  The reference is a straight line of 220 host operations; the buffer contents after it are the fold of the
  operations over the launch contents (Proof/HostProgram.lean). The fold is read in six windows. Window A slices the
  thirteen state columns and the thirty parameter columns out of the two matrix arguments. For contents `W` in which
  those forty-three buffers and the four scalar arguments hold one patient per row, `patient W i j` is rate `j`
  (`Cert.Rates.rate`, the host's negation) of the patient in row `i`. Windows B, C and D compute rates 0 to 9, each
  into its own buffer, and the insulin flow that rate 10 uses (`B_rate0` … `D_rate9`, `B_flow`: by unfolding, every
  operation acts entry by entry); window E computes rates 10 to 12 (`E_rate10` … `E_rate12`); window J, one operation, joins the thirteen columns (`J_join`). A window
  leaves alone every buffer it does not write (`keepA` … `keepJ`), so what an earlier window left is still there when
  the join reads it, and the patients' rows stay in place (`patient_congr`). Chained (`result`): the result buffer
  holds `Cert.Rates.field` of the arguments, and the arguments are as launched (`kept`).
-/
import proofs.«120048_j11373073400313_2_alg».proof.Proof.HostProgram
import proofs.«120048_j11373073400313_2_alg».proof.Proof.PatientRates
import Idealize.ShloMosaic.Lib.Pipeline.Frame

noncomputable section

namespace Cert.ReferenceIdeal.Whole

open Cert.ReferenceIdeal Cert.ReferenceIdeal.Gen Cert.ReferenceIdeal.Program Cert.Rates Cert.ColumnSlice
open Idealize.ShloMosaic Idealize.ShloMosaic.ValueIdx Idealize.ShloMosaic.TcCoe Idealize.SL.Sem Idealize.ShloMosaic.StableHlo

/-- The contents of the device's buffers, over the extended reals. -/
abbrev Contents : Type := Valuation τ sig (Elt Ideal)

/-- Reads a buffer after a window: unfolds the window's fold, each operation's result at its own buffer its function's
    value and elsewhere what was there, and closes what is left by unfolding. -/
local macro "read_window " w:ident : tactic =>
  `(tactic| (simp only [$w:ident]; after_results_simp <;> rfl))

/-! ## One patient per row -/

/-- The state columns: the buffers the slices of the first argument are written to. -/
def stateCol (W : Contents) : Fin 13 → (S1048576x1.Idx → EReal)
  | ⟨0, _⟩ => W (Proc.devRef .tc main_v0)
  | ⟨1, _⟩ => W (Proc.devRef .tc main_v1)
  | ⟨2, _⟩ => W (Proc.devRef .tc main_v2)
  | ⟨3, _⟩ => W (Proc.devRef .tc main_v3)
  | ⟨4, _⟩ => W (Proc.devRef .tc main_v4)
  | ⟨5, _⟩ => W (Proc.devRef .tc main_v5)
  | ⟨6, _⟩ => W (Proc.devRef .tc main_v6)
  | ⟨7, _⟩ => W (Proc.devRef .tc main_v7)
  | ⟨8, _⟩ => W (Proc.devRef .tc main_v8)
  | ⟨9, _⟩ => W (Proc.devRef .tc main_v9)
  | ⟨10, _⟩ => W (Proc.devRef .tc main_v10)
  | ⟨11, _⟩ => W (Proc.devRef .tc main_v11)
  | ⟨12, _⟩ => W (Proc.devRef .tc main_v12)
  | ⟨n + 13, h⟩ => absurd h (Nat.not_lt.2 (Nat.le_add_left _ _))

/-- The parameter columns: the buffers the slices of the second argument are written to. -/
def paramCol (W : Contents) : Fin 30 → (S1048576x1.Idx → EReal)
  | ⟨0, _⟩ => W (Proc.devRef .tc main_v13)
  | ⟨1, _⟩ => W (Proc.devRef .tc main_v14)
  | ⟨2, _⟩ => W (Proc.devRef .tc main_v15)
  | ⟨3, _⟩ => W (Proc.devRef .tc main_v16)
  | ⟨4, _⟩ => W (Proc.devRef .tc main_v17)
  | ⟨5, _⟩ => W (Proc.devRef .tc main_v18)
  | ⟨6, _⟩ => W (Proc.devRef .tc main_v19)
  | ⟨7, _⟩ => W (Proc.devRef .tc main_v20)
  | ⟨8, _⟩ => W (Proc.devRef .tc main_v21)
  | ⟨9, _⟩ => W (Proc.devRef .tc main_v22)
  | ⟨10, _⟩ => W (Proc.devRef .tc main_v23)
  | ⟨11, _⟩ => W (Proc.devRef .tc main_v24)
  | ⟨12, _⟩ => W (Proc.devRef .tc main_v25)
  | ⟨13, _⟩ => W (Proc.devRef .tc main_v26)
  | ⟨14, _⟩ => W (Proc.devRef .tc main_v27)
  | ⟨15, _⟩ => W (Proc.devRef .tc main_v28)
  | ⟨16, _⟩ => W (Proc.devRef .tc main_v29)
  | ⟨17, _⟩ => W (Proc.devRef .tc main_v30)
  | ⟨18, _⟩ => W (Proc.devRef .tc main_v31)
  | ⟨19, _⟩ => W (Proc.devRef .tc main_v32)
  | ⟨20, _⟩ => W (Proc.devRef .tc main_v33)
  | ⟨21, _⟩ => W (Proc.devRef .tc main_v34)
  | ⟨22, _⟩ => W (Proc.devRef .tc main_v35)
  | ⟨23, _⟩ => W (Proc.devRef .tc main_v36)
  | ⟨24, _⟩ => W (Proc.devRef .tc main_v37)
  | ⟨25, _⟩ => W (Proc.devRef .tc main_v38)
  | ⟨26, _⟩ => W (Proc.devRef .tc main_v39)
  | ⟨27, _⟩ => W (Proc.devRef .tc main_v40)
  | ⟨28, _⟩ => W (Proc.devRef .tc main_v41)
  | ⟨29, _⟩ => W (Proc.devRef .tc main_v42)
  | ⟨n + 30, h⟩ => absurd h (Nat.not_lt.2 (Nat.le_add_left _ _))

/-- The four scalar arguments, one entry per patient. -/
abbrev insCol (W : Contents) : S1048576x1.Idx → EReal := W (Proc.devRef .tc main_arg2)
abbrev choCol (W : Contents) : S1048576x1.Idx → EReal := W (Proc.devRef .tc main_arg3)
abbrev stomachCol (W : Contents) : S1048576x1.Idx → EReal := W (Proc.devRef .tc main_arg4)
abbrev foodCol (W : Contents) : S1048576x1.Idx → EReal := W (Proc.devRef .tc main_arg5)

/-- Rate `j` of the patient in row `i` of the contents `W`. -/
def patient (W : Contents) (i : S1048576x1.Idx) (j : Fin 13) : EReal :=
  rate (fun v => -v) (fun k => stateCol W k i) (fun k => paramCol W k i)
    (insCol W i) (choCol W i) (stomachCol W i) (foodCol W i) j

/-- The insulin flow into the patient in row `i`: the insulin action times 6000 over the body weight. -/
def flow (W : Contents) : S1048576x1.Idx → EReal :=
  fun i => Ideal.div (insCol W i * sixThousand) (paramCol W 0 i)

/-- The field of rates of the patients the contents `W` hold: entry `(r, j)` is rate `j` of the patient in row `r`. -/
def rows (W : Contents) : S1048576x13.Idx → EReal :=
  fun idx => patient W (ix2 (idx 0) 0) (idx 1)

/-- The buffers a patient's row is read from. -/
abbrev inputs : List (Ref sig .tc) := [main_arg2, main_arg3, main_arg4, main_arg5, main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42]

theorem stateCol_congr (W W' : Contents) (h : ∀ r ∈ inputs, W' (Proc.devRef .tc r) = W (Proc.devRef .tc r)) :
    stateCol W' = stateCol W :=
  funext fun k => match k with
    | ⟨0, _⟩ => h main_v0 (by decide)
    | ⟨1, _⟩ => h main_v1 (by decide)
    | ⟨2, _⟩ => h main_v2 (by decide)
    | ⟨3, _⟩ => h main_v3 (by decide)
    | ⟨4, _⟩ => h main_v4 (by decide)
    | ⟨5, _⟩ => h main_v5 (by decide)
    | ⟨6, _⟩ => h main_v6 (by decide)
    | ⟨7, _⟩ => h main_v7 (by decide)
    | ⟨8, _⟩ => h main_v8 (by decide)
    | ⟨9, _⟩ => h main_v9 (by decide)
    | ⟨10, _⟩ => h main_v10 (by decide)
    | ⟨11, _⟩ => h main_v11 (by decide)
    | ⟨12, _⟩ => h main_v12 (by decide)
    | ⟨n + 13, hn⟩ => absurd hn (Nat.not_lt.2 (Nat.le_add_left _ _))

theorem paramCol_congr (W W' : Contents) (h : ∀ r ∈ inputs, W' (Proc.devRef .tc r) = W (Proc.devRef .tc r)) :
    paramCol W' = paramCol W :=
  funext fun k => match k with
    | ⟨0, _⟩ => h main_v13 (by decide)
    | ⟨1, _⟩ => h main_v14 (by decide)
    | ⟨2, _⟩ => h main_v15 (by decide)
    | ⟨3, _⟩ => h main_v16 (by decide)
    | ⟨4, _⟩ => h main_v17 (by decide)
    | ⟨5, _⟩ => h main_v18 (by decide)
    | ⟨6, _⟩ => h main_v19 (by decide)
    | ⟨7, _⟩ => h main_v20 (by decide)
    | ⟨8, _⟩ => h main_v21 (by decide)
    | ⟨9, _⟩ => h main_v22 (by decide)
    | ⟨10, _⟩ => h main_v23 (by decide)
    | ⟨11, _⟩ => h main_v24 (by decide)
    | ⟨12, _⟩ => h main_v25 (by decide)
    | ⟨13, _⟩ => h main_v26 (by decide)
    | ⟨14, _⟩ => h main_v27 (by decide)
    | ⟨15, _⟩ => h main_v28 (by decide)
    | ⟨16, _⟩ => h main_v29 (by decide)
    | ⟨17, _⟩ => h main_v30 (by decide)
    | ⟨18, _⟩ => h main_v31 (by decide)
    | ⟨19, _⟩ => h main_v32 (by decide)
    | ⟨20, _⟩ => h main_v33 (by decide)
    | ⟨21, _⟩ => h main_v34 (by decide)
    | ⟨22, _⟩ => h main_v35 (by decide)
    | ⟨23, _⟩ => h main_v36 (by decide)
    | ⟨24, _⟩ => h main_v37 (by decide)
    | ⟨25, _⟩ => h main_v38 (by decide)
    | ⟨26, _⟩ => h main_v39 (by decide)
    | ⟨27, _⟩ => h main_v40 (by decide)
    | ⟨28, _⟩ => h main_v41 (by decide)
    | ⟨29, _⟩ => h main_v42 (by decide)
    | ⟨n + 30, hn⟩ => absurd hn (Nat.not_lt.2 (Nat.le_add_left _ _))

/-- Contents that agree on those buffers hold the same patients, -/
theorem patient_congr (W W' : Contents) (h : ∀ r ∈ inputs, W' (Proc.devRef .tc r) = W (Proc.devRef .tc r)) :
    patient W' = patient W := by
  funext i j
  unfold patient insCol choCol stomachCol foodCol
  rw [stateCol_congr W W' h, paramCol_congr W W' h, h main_arg2 (by decide), h main_arg3 (by decide),
    h main_arg4 (by decide), h main_arg5 (by decide)]

/-- and the same insulin flows. -/
theorem flow_congr (W W' : Contents) (h : ∀ r ∈ inputs, W' (Proc.devRef .tc r) = W (Proc.devRef .tc r)) :
    flow W' = flow W := by
  funext i
  unfold flow insCol
  rw [paramCol_congr W W' h, h main_arg2 (by decide)]

/-! ## What each window writes, and what it leaves alone -/

/-- The buffers window A writes. -/
abbrev opsA_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42]
theorem opsA_writes : (opsA : List (HloOp τ sig (Elt Ideal))).Forall fun op =>
    op.writes ⊆ (opsA_W.map (Proc.devRef (τ := τ) .tc)).toFinset := by
  simp only [List.Forall]
  repeat' apply And.intro
  all_goals (simp only [nullary_writes, unary_writes, binary_writes, ternary_writes, nary_writes,
    Finset.singleton_subset_iff, List.mem_toFinset]; exact List.mem_map_of_mem (by decide))
/-- A buffer window A does not write keeps its contents through it. -/
theorem keepA (W : Contents) (r : Ref sig .tc) (h : r ∉ opsA_W) :
    after opsA W (Proc.devRef .tc r) = W (Proc.devRef .tc r) :=
  after_of_writes_sub (opsA (F := Ideal)) _ opsA_writes h

/-- The buffers window B writes. -/
abbrev opsB_W : List (Ref sig .tc) := [main_cst, main_v43, main_v44, main_v45, main_v46, main_v47, main_v48, main_v49, main_cst_0, main_v50, main_v51, main_v52, main_cst_1, main_v53, main_v54, main_cst_2, main_v55, main_v56, main_cst_3, main_v57, main_v58, main_v59, main_cst_4, main_v60, main_v61, main_cst_5, main_v62, main_v63, main_v64, main_v65, main_cst_6, main_v66, main_v67, main_v68, main_v69, main_v70, main_v71, main_v72, main_v73, main_v74, main_v75, main_v76, main_cst_7, main_v77, main_v78, main_v79, main_v80, main_cst_8, main_v81, main_v82, main_v83, main_v84, main_v85, main_v86, main_v87, main_v88, main_v89]
theorem opsB_writes : (opsB : List (HloOp τ sig (Elt Ideal))).Forall fun op =>
    op.writes ⊆ (opsB_W.map (Proc.devRef (τ := τ) .tc)).toFinset := by
  simp only [List.Forall]
  repeat' apply And.intro
  all_goals (simp only [nullary_writes, unary_writes, binary_writes, ternary_writes, nary_writes,
    Finset.singleton_subset_iff, List.mem_toFinset]; exact List.mem_map_of_mem (by decide))
/-- A buffer window B does not write keeps its contents through it. -/
theorem keepB (W : Contents) (r : Ref sig .tc) (h : r ∉ opsB_W) :
    after opsB W (Proc.devRef .tc r) = W (Proc.devRef .tc r) :=
  after_of_writes_sub (opsB (F := Ideal)) _ opsB_writes h

/-- The buffers window C writes. -/
abbrev opsC_W : List (Ref sig .tc) := [main_v90, main_v91, main_v92, main_v93, main_v94, main_v95, main_v96, main_v97, main_v98, main_v99, main_cst_9, main_call1_v0, main_call1_v1, main_v100, main_cst_10, main_v101, main_v102, main_v103, main_v104, main_v105, main_v106, main_v107, main_v108, main_v109, main_cst_11, main_v110, main_v111, main_cst_12, main_call2_v0, main_call2_v1, main_v112, main_v113, main_v114, main_v115, main_v116, main_v117, main_v118, main_v119, main_v120, main_v121, main_v122, main_cst_13, main_v123, main_v124, main_cst_14, main_call3_v0, main_call3_v1, main_v125]
theorem opsC_writes : (opsC : List (HloOp τ sig (Elt Ideal))).Forall fun op =>
    op.writes ⊆ (opsC_W.map (Proc.devRef (τ := τ) .tc)).toFinset := by
  simp only [List.Forall]
  repeat' apply And.intro
  all_goals (simp only [nullary_writes, unary_writes, binary_writes, ternary_writes, nary_writes,
    Finset.singleton_subset_iff, List.mem_toFinset]; exact List.mem_map_of_mem (by decide))
/-- A buffer window C does not write keeps its contents through it. -/
theorem keepC (W : Contents) (r : Ref sig .tc) (h : r ∉ opsC_W) :
    after opsC W (Proc.devRef .tc r) = W (Proc.devRef .tc r) :=
  after_of_writes_sub (opsC (F := Ideal)) _ opsC_writes h

/-- The buffers window D writes. -/
abbrev opsD_W : List (Ref sig .tc) := [main_v126, main_v127, main_v128, main_v129, main_v130, main_v131, main_v132, main_v133, main_v134, main_v135, main_cst_15, main_v136, main_v137, main_cst_16, main_call4_v0, main_call4_v1, main_v138, main_v139, main_v140, main_v141, main_v142, main_v143, main_v144, main_v145, main_v146, main_v147, main_v148, main_v149, main_v150, main_v151, main_v152, main_v153, main_v154, main_cst_17, main_v155, main_v156, main_cst_18, main_call5_v0, main_call5_v1, main_v157]
theorem opsD_writes : (opsD : List (HloOp τ sig (Elt Ideal))).Forall fun op =>
    op.writes ⊆ (opsD_W.map (Proc.devRef (τ := τ) .tc)).toFinset := by
  simp only [List.Forall]
  repeat' apply And.intro
  all_goals (simp only [nullary_writes, unary_writes, binary_writes, ternary_writes, nary_writes,
    Finset.singleton_subset_iff, List.mem_toFinset]; exact List.mem_map_of_mem (by decide))
/-- A buffer window D does not write keeps its contents through it. -/
theorem keepD (W : Contents) (r : Ref sig .tc) (h : r ∉ opsD_W) :
    after opsD W (Proc.devRef .tc r) = W (Proc.devRef .tc r) :=
  after_of_writes_sub (opsD (F := Ideal)) _ opsD_writes h

/-- The buffers window E writes. -/
abbrev opsE_W : List (Ref sig .tc) := [main_v158, main_v159, main_v160, main_cst_19, main_v161, main_v162, main_cst_20, main_call6_v0, main_call6_v1, main_v163, main_v164, main_v165, main_v166, main_cst_21, main_v167, main_v168, main_cst_22, main_call7_v0, main_call7_v1, main_v169, main_v170, main_v171, main_v172, main_v173, main_cst_23, main_v174, main_v175, main_cst_24, main_call8_v0, main_call8_v1, main_v176]
theorem opsE_writes : (opsE : List (HloOp τ sig (Elt Ideal))).Forall fun op =>
    op.writes ⊆ (opsE_W.map (Proc.devRef (τ := τ) .tc)).toFinset := by
  simp only [List.Forall]
  repeat' apply And.intro
  all_goals (simp only [nullary_writes, unary_writes, binary_writes, ternary_writes, nary_writes,
    Finset.singleton_subset_iff, List.mem_toFinset]; exact List.mem_map_of_mem (by decide))
/-- A buffer window E does not write keeps its contents through it. -/
theorem keepE (W : Contents) (r : Ref sig .tc) (h : r ∉ opsE_W) :
    after opsE W (Proc.devRef .tc r) = W (Proc.devRef .tc r) :=
  after_of_writes_sub (opsE (F := Ideal)) _ opsE_writes h

/-- The buffers window J writes. -/
abbrev opsJ_W : List (Ref sig .tc) := [main_v177]
theorem opsJ_writes : (opsJ : List (HloOp τ sig (Elt Ideal))).Forall fun op =>
    op.writes ⊆ (opsJ_W.map (Proc.devRef (τ := τ) .tc)).toFinset := by
  simp only [List.Forall]
  repeat' apply And.intro
  all_goals (simp only [nullary_writes, unary_writes, binary_writes, ternary_writes, nary_writes,
    Finset.singleton_subset_iff, List.mem_toFinset]; exact List.mem_map_of_mem (by decide))
/-- A buffer window J does not write keeps its contents through it. -/
theorem keepJ (W : Contents) (r : Ref sig .tc) (h : r ∉ opsJ_W) :
    after opsJ W (Proc.devRef .tc r) = W (Proc.devRef .tc r) :=
  after_of_writes_sub (opsJ (F := Ideal)) _ opsJ_writes h

/-- Windows B to J write none of the buffers a patient's row is read from. -/
theorem inputs_notB : ∀ r ∈ inputs, r ∉ opsB_W := by decide
theorem inputs_notC : ∀ r ∈ inputs, r ∉ opsC_W := by decide
theorem inputs_notD : ∀ r ∈ inputs, r ∉ opsD_W := by decide
theorem inputs_notE : ∀ r ∈ inputs, r ∉ opsE_W := by decide
theorem inputs_notJ : ∀ r ∈ inputs, r ∉ opsJ_W := by decide

/-! ## Window A: the columns -/

set_option maxRecDepth 8192 in
set_option maxHeartbeats 4000000 in
/-- After window A state column `k` is column `k` of the first argument, -/
theorem A_state (W : Contents) : ∀ k : Fin 13, stateCol (after opsA W) k = col (W (Proc.devRef .tc main_arg0) : S1048576x13.Idx → EReal) k
  | ⟨0, _⟩ => by show after opsA W (Proc.devRef .tc main_v0) = _; read_window opsA
  | ⟨1, _⟩ => by show after opsA W (Proc.devRef .tc main_v1) = _; read_window opsA
  | ⟨2, _⟩ => by show after opsA W (Proc.devRef .tc main_v2) = _; read_window opsA
  | ⟨3, _⟩ => by show after opsA W (Proc.devRef .tc main_v3) = _; read_window opsA
  | ⟨4, _⟩ => by show after opsA W (Proc.devRef .tc main_v4) = _; read_window opsA
  | ⟨5, _⟩ => by show after opsA W (Proc.devRef .tc main_v5) = _; read_window opsA
  | ⟨6, _⟩ => by show after opsA W (Proc.devRef .tc main_v6) = _; read_window opsA
  | ⟨7, _⟩ => by show after opsA W (Proc.devRef .tc main_v7) = _; read_window opsA
  | ⟨8, _⟩ => by show after opsA W (Proc.devRef .tc main_v8) = _; read_window opsA
  | ⟨9, _⟩ => by show after opsA W (Proc.devRef .tc main_v9) = _; read_window opsA
  | ⟨10, _⟩ => by show after opsA W (Proc.devRef .tc main_v10) = _; read_window opsA
  | ⟨11, _⟩ => by show after opsA W (Proc.devRef .tc main_v11) = _; read_window opsA
  | ⟨12, _⟩ => by show after opsA W (Proc.devRef .tc main_v12) = _; read_window opsA
  | ⟨n + 13, hn⟩ => absurd hn (Nat.not_lt.2 (Nat.le_add_left _ _))

set_option maxRecDepth 8192 in
set_option maxHeartbeats 8000000 in
/-- and parameter column `k` is column `k` of the second. -/
theorem A_param (W : Contents) : ∀ k : Fin 30, paramCol (after opsA W) k = col (W (Proc.devRef .tc main_arg1) : S1048576x30.Idx → EReal) k
  | ⟨0, _⟩ => by show after opsA W (Proc.devRef .tc main_v13) = _; read_window opsA
  | ⟨1, _⟩ => by show after opsA W (Proc.devRef .tc main_v14) = _; read_window opsA
  | ⟨2, _⟩ => by show after opsA W (Proc.devRef .tc main_v15) = _; read_window opsA
  | ⟨3, _⟩ => by show after opsA W (Proc.devRef .tc main_v16) = _; read_window opsA
  | ⟨4, _⟩ => by show after opsA W (Proc.devRef .tc main_v17) = _; read_window opsA
  | ⟨5, _⟩ => by show after opsA W (Proc.devRef .tc main_v18) = _; read_window opsA
  | ⟨6, _⟩ => by show after opsA W (Proc.devRef .tc main_v19) = _; read_window opsA
  | ⟨7, _⟩ => by show after opsA W (Proc.devRef .tc main_v20) = _; read_window opsA
  | ⟨8, _⟩ => by show after opsA W (Proc.devRef .tc main_v21) = _; read_window opsA
  | ⟨9, _⟩ => by show after opsA W (Proc.devRef .tc main_v22) = _; read_window opsA
  | ⟨10, _⟩ => by show after opsA W (Proc.devRef .tc main_v23) = _; read_window opsA
  | ⟨11, _⟩ => by show after opsA W (Proc.devRef .tc main_v24) = _; read_window opsA
  | ⟨12, _⟩ => by show after opsA W (Proc.devRef .tc main_v25) = _; read_window opsA
  | ⟨13, _⟩ => by show after opsA W (Proc.devRef .tc main_v26) = _; read_window opsA
  | ⟨14, _⟩ => by show after opsA W (Proc.devRef .tc main_v27) = _; read_window opsA
  | ⟨15, _⟩ => by show after opsA W (Proc.devRef .tc main_v28) = _; read_window opsA
  | ⟨16, _⟩ => by show after opsA W (Proc.devRef .tc main_v29) = _; read_window opsA
  | ⟨17, _⟩ => by show after opsA W (Proc.devRef .tc main_v30) = _; read_window opsA
  | ⟨18, _⟩ => by show after opsA W (Proc.devRef .tc main_v31) = _; read_window opsA
  | ⟨19, _⟩ => by show after opsA W (Proc.devRef .tc main_v32) = _; read_window opsA
  | ⟨20, _⟩ => by show after opsA W (Proc.devRef .tc main_v33) = _; read_window opsA
  | ⟨21, _⟩ => by show after opsA W (Proc.devRef .tc main_v34) = _; read_window opsA
  | ⟨22, _⟩ => by show after opsA W (Proc.devRef .tc main_v35) = _; read_window opsA
  | ⟨23, _⟩ => by show after opsA W (Proc.devRef .tc main_v36) = _; read_window opsA
  | ⟨24, _⟩ => by show after opsA W (Proc.devRef .tc main_v37) = _; read_window opsA
  | ⟨25, _⟩ => by show after opsA W (Proc.devRef .tc main_v38) = _; read_window opsA
  | ⟨26, _⟩ => by show after opsA W (Proc.devRef .tc main_v39) = _; read_window opsA
  | ⟨27, _⟩ => by show after opsA W (Proc.devRef .tc main_v40) = _; read_window opsA
  | ⟨28, _⟩ => by show after opsA W (Proc.devRef .tc main_v41) = _; read_window opsA
  | ⟨29, _⟩ => by show after opsA W (Proc.devRef .tc main_v42) = _; read_window opsA
  | ⟨n + 30, hn⟩ => absurd hn (Nat.not_lt.2 (Nat.le_add_left _ _))

/-! ## Windows B, C, D: rates 0 to 9, one buffer each -/

set_option maxRecDepth 8192 in
set_option maxHeartbeats 4000000 in
theorem B_flow (W : Contents) : after opsB W (Proc.devRef .tc main_v45) = flow W := by
  read_window opsB

set_option maxRecDepth 8192 in
set_option maxHeartbeats 4000000 in
theorem B_rate0 (W : Contents) : after opsB W (Proc.devRef .tc main_v52) = fun i => patient W i ⟨0, by decide⟩ := by
  read_window opsB

set_option maxRecDepth 8192 in
set_option maxHeartbeats 4000000 in
theorem B_rate1 (W : Contents) : after opsB W (Proc.devRef .tc main_v86) = fun i => patient W i ⟨1, by decide⟩ := by
  read_window opsB

set_option maxRecDepth 8192 in
set_option maxHeartbeats 4000000 in
theorem B_rate2 (W : Contents) : after opsB W (Proc.devRef .tc main_v89) = fun i => patient W i ⟨2, by decide⟩ := by
  read_window opsB

set_option maxRecDepth 8192 in
set_option maxHeartbeats 4000000 in
theorem C_rate3 (W : Contents) : after opsC W (Proc.devRef .tc main_v112) = fun i => patient W i ⟨3, by decide⟩ := by
  read_window opsC

set_option maxRecDepth 8192 in
set_option maxHeartbeats 4000000 in
theorem C_rate4 (W : Contents) : after opsC W (Proc.devRef .tc main_v125) = fun i => patient W i ⟨4, by decide⟩ := by
  read_window opsC

set_option maxRecDepth 8192 in
set_option maxHeartbeats 4000000 in
theorem D_rate5 (W : Contents) : after opsD W (Proc.devRef .tc main_v138) = fun i => patient W i ⟨5, by decide⟩ := by
  read_window opsD

set_option maxRecDepth 8192 in
set_option maxHeartbeats 4000000 in
theorem D_rate6 (W : Contents) : after opsD W (Proc.devRef .tc main_v143) = fun i => patient W i ⟨6, by decide⟩ := by
  read_window opsD

set_option maxRecDepth 8192 in
set_option maxHeartbeats 4000000 in
theorem D_rate7 (W : Contents) : after opsD W (Proc.devRef .tc main_v146) = fun i => patient W i ⟨7, by decide⟩ := by
  read_window opsD

set_option maxRecDepth 8192 in
set_option maxHeartbeats 4000000 in
theorem D_rate8 (W : Contents) : after opsD W (Proc.devRef .tc main_v149) = fun i => patient W i ⟨8, by decide⟩ := by
  read_window opsD

set_option maxRecDepth 8192 in
set_option maxHeartbeats 4000000 in
theorem D_rate9 (W : Contents) : after opsD W (Proc.devRef .tc main_v157) = fun i => patient W i ⟨9, by decide⟩ := by
  read_window opsD

/-! ## Window E: rates 10 to 12 -/

set_option maxRecDepth 8192 in
set_option maxHeartbeats 4000000 in
/-- Rate 10 reads the insulin flow window B left. -/
theorem E_rate10 (W : Contents) (hf : W (Proc.devRef .tc main_v45) = flow W) :
    after opsE W (Proc.devRef .tc main_v163) = fun i => patient W i ⟨10, by decide⟩ := by
  simp only [opsE]
  after_results_simp
  rw [hf]
  rfl

set_option maxRecDepth 8192 in
set_option maxHeartbeats 4000000 in
theorem E_rate11 (W : Contents) : after opsE W (Proc.devRef .tc main_v169) = fun i => patient W i ⟨11, by decide⟩ := by
  read_window opsE

set_option maxRecDepth 8192 in
set_option maxHeartbeats 4000000 in
theorem E_rate12 (W : Contents) : after opsE W (Proc.devRef .tc main_v176) = fun i => patient W i ⟨12, by decide⟩ := by
  read_window opsE

/-! ## Window J: the join -/

/-- The thirteen buffers the join reads, in order. -/
def rateCol (W : Contents) : Fin 13 → (S1048576x1.Idx → EReal)
  | ⟨0, _⟩ => W (Proc.devRef .tc main_v52)
  | ⟨1, _⟩ => W (Proc.devRef .tc main_v86)
  | ⟨2, _⟩ => W (Proc.devRef .tc main_v89)
  | ⟨3, _⟩ => W (Proc.devRef .tc main_v112)
  | ⟨4, _⟩ => W (Proc.devRef .tc main_v125)
  | ⟨5, _⟩ => W (Proc.devRef .tc main_v138)
  | ⟨6, _⟩ => W (Proc.devRef .tc main_v143)
  | ⟨7, _⟩ => W (Proc.devRef .tc main_v146)
  | ⟨8, _⟩ => W (Proc.devRef .tc main_v149)
  | ⟨9, _⟩ => W (Proc.devRef .tc main_v157)
  | ⟨10, _⟩ => W (Proc.devRef .tc main_v163)
  | ⟨11, _⟩ => W (Proc.devRef .tc main_v169)
  | ⟨12, _⟩ => W (Proc.devRef .tc main_v176)
  | ⟨n + 13, h⟩ => absurd h (Nat.not_lt.2 (Nat.le_add_left _ _))

set_option maxRecDepth 8192 in
set_option maxHeartbeats 4000000 in
/-- With rate `j` in the `j`-th of those buffers, the join leaves the field of rates in the result: entry `(r, j)` of
    the join is entry `(r, 0)` of column `j`. -/
theorem J_join (W : Contents) (h : ∀ j : Fin 13, rateCol W j = fun i => patient W i j) :
    (after opsJ W (Proc.devRef .tc main_v177) : S1048576x13.Idx → EReal) = rows W := by
  simp only [opsJ]
  after_results_simp
  refine funext fun (idx : S1048576x13.Idx) => ?_
  obtain ⟨r, j, rfl⟩ : ∃ (r : Fin 1048576) (j : Fin 13), idx = ix2 r j := ⟨idx 0, idx 1, eq_ix2 idx⟩
  have hj : j.val < 13 := j.isLt
  show concatenate S1048576x13 1 (List.ofFn fun n : Fin 13 =>
    (⟨S1048576x1, rateCol W n⟩ : (s : Shape) × (s.Idx → EReal))) _ (ix2 r j) = patient W (ix2 r 0) j
  refine (concatenate_ofFn_apply (t := S1048576x13) (s₁ := S1048576x1) (1 : Fin 2) (rateCol W) _ rfl 1 rfl (ix2 r j)
    j (by show j.val / 1 = j.val; omega) (ix2 r 0) (by show 0 = j.val % 1; omega)
    (fun b hb => by match b with | ⟨0, _⟩ => rfl | ⟨1, _⟩ => exact absurd rfl hb)).trans ?_
  exact congrFun (h j) (ix2 r 0)

/-! ## The six windows, chained -/

/-- After the whole program the result buffer holds the field of rates of the arguments. -/
theorem result (V : Contents) :
    (after (ops (F := Ideal)) V (Proc.devRef .tc main_v177) : S1048576x13.Idx → EReal)
      = field (fun v => -v) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  simp only [ops, StableHlo.after_append]
  -- the patients the contents after each window hold are those after window A
  have pB : patient (after opsB (after opsA V)) = patient (after opsA V) :=
    patient_congr _ _ fun r hr => keepB _ r (inputs_notB r hr)
  have pC : patient (after opsC (after opsB (after opsA V))) = patient (after opsA V) :=
    (patient_congr _ _ fun r hr => keepC _ r (inputs_notC r hr)).trans pB
  have pD : patient (after opsD (after opsC (after opsB (after opsA V)))) = patient (after opsA V) :=
    (patient_congr _ _ fun r hr => keepD _ r (inputs_notD r hr)).trans pC
  have pE : patient (after opsE (after opsD (after opsC (after opsB (after opsA V))))) = patient (after opsA V) :=
    (patient_congr _ _ fun r hr => keepE _ r (inputs_notE r hr)).trans pD
  have fD : flow (after opsD (after opsC (after opsB (after opsA V)))) = flow (after opsA V) :=
    (flow_congr _ _ fun r hr => keepD _ r (inputs_notD r hr)).trans
      ((flow_congr _ _ fun r hr => keepC _ r (inputs_notC r hr)).trans
        (flow_congr _ _ fun r hr => keepB _ r (inputs_notB r hr)))
  -- each rate's buffer, as the join finds it
  have hcol : ∀ j : Fin 13, rateCol (after opsE (after opsD (after opsC (after opsB (after opsA V))))) j
      = fun i => patient (after opsE (after opsD (after opsC (after opsB (after opsA V))))) i j := by
    intro j
    rw [pE]
    match j with
    | ⟨0, _⟩ => show after opsE _ (Proc.devRef .tc main_v52) = _
                rw [keepE _ main_v52 (by decide), keepD _ main_v52 (by decide), keepC _ main_v52 (by decide), B_rate0]
    | ⟨1, _⟩ => show after opsE _ (Proc.devRef .tc main_v86) = _
                rw [keepE _ main_v86 (by decide), keepD _ main_v86 (by decide), keepC _ main_v86 (by decide), B_rate1]
    | ⟨2, _⟩ => show after opsE _ (Proc.devRef .tc main_v89) = _
                rw [keepE _ main_v89 (by decide), keepD _ main_v89 (by decide), keepC _ main_v89 (by decide), B_rate2]
    | ⟨3, _⟩ => show after opsE _ (Proc.devRef .tc main_v112) = _
                rw [keepE _ main_v112 (by decide), keepD _ main_v112 (by decide), C_rate3, pB]
    | ⟨4, _⟩ => show after opsE _ (Proc.devRef .tc main_v125) = _
                rw [keepE _ main_v125 (by decide), keepD _ main_v125 (by decide), C_rate4, pB]
    | ⟨5, _⟩ => show after opsE _ (Proc.devRef .tc main_v138) = _
                rw [keepE _ main_v138 (by decide), D_rate5, pC]
    | ⟨6, _⟩ => show after opsE _ (Proc.devRef .tc main_v143) = _
                rw [keepE _ main_v143 (by decide), D_rate6, pC]
    | ⟨7, _⟩ => show after opsE _ (Proc.devRef .tc main_v146) = _
                rw [keepE _ main_v146 (by decide), D_rate7, pC]
    | ⟨8, _⟩ => show after opsE _ (Proc.devRef .tc main_v149) = _
                rw [keepE _ main_v149 (by decide), D_rate8, pC]
    | ⟨9, _⟩ => show after opsE _ (Proc.devRef .tc main_v157) = _
                rw [keepE _ main_v157 (by decide), D_rate9, pC]
    | ⟨10, _⟩ => show after opsE _ (Proc.devRef .tc main_v163) = _
                 rw [E_rate10 _ (by rw [fD, keepD _ main_v45 (by decide), keepC _ main_v45 (by decide), B_flow]), pD]
    | ⟨11, _⟩ => show after opsE _ (Proc.devRef .tc main_v169) = _
                 rw [E_rate11, pD]
    | ⟨12, _⟩ => show after opsE _ (Proc.devRef .tc main_v176) = _
                 rw [E_rate12, pD]
  rw [J_join _ hcol]
  -- the patients after window A are the rows of the arguments
  refine funext fun (idx : S1048576x13.Idx) => ?_
  obtain ⟨r, j, rfl⟩ : ∃ (r : Fin 1048576) (j : Fin 13), idx = ix2 r j := ⟨idx 0, idx 1, eq_ix2 idx⟩
  show patient (after opsE (after opsD (after opsC (after opsB (after opsA V))))) (ix2 r 0) j = _
  rw [pE]
  unfold patient field insCol choCol stomachCol foodCol
  rw [funext (A_state V), funext (A_param V), keepA V main_arg2 (by decide), keepA V main_arg3 (by decide),
    keepA V main_arg4 (by decide), keepA V main_arg5 (by decide)]
  simp only [col_apply]

/-- No window writes an argument. -/
theorem kept (V : Contents) (r : Ref sig .tc) (hA : r ∉ opsA_W) (hB : r ∉ opsB_W) (hC : r ∉ opsC_W) (hD : r ∉ opsD_W)
    (hE : r ∉ opsE_W) (hJ : r ∉ opsJ_W) : after (ops (F := Ideal)) V (Proc.devRef .tc r) = V (Proc.devRef .tc r) := by
  simp only [ops, StableHlo.after_append]
  rw [keepJ _ r hJ, keepE _ r hE, keepD _ r hD, keepC _ r hC, keepB _ r hB, keepA _ r hA]

/-- The run, read: the result at the field of rates of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v177)
        = field (fun v => -v) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c main_v177).trans (result (launchContents m c)),
      (h c main_arg0).trans (kept _ main_arg0 (by decide) (by decide) (by decide) (by decide) (by decide) (by decide)),
      (h c main_arg1).trans (kept _ main_arg1 (by decide) (by decide) (by decide) (by decide) (by decide) (by decide)),
      (h c main_arg2).trans (kept _ main_arg2 (by decide) (by decide) (by decide) (by decide) (by decide) (by decide)),
      (h c main_arg3).trans (kept _ main_arg3 (by decide) (by decide) (by decide) (by decide) (by decide) (by decide)),
      (h c main_arg4).trans (kept _ main_arg4 (by decide) (by decide) (by decide) (by decide) (by decide) (by decide)),
      (h c main_arg5).trans (kept _ main_arg5 (by decide) (by decide) (by decide) (by decide) (by decide) (by decide))⟩)
    (Cert.ReferenceIdeal.Program.run (F := Ideal) m ρ)

end Cert.ReferenceIdeal.Whole

end
-- ==== Proof.lean ====
/-
  The kernel against its reference: a cohort of 1048576 patients, each a state of thirteen numbers, thirty parameters
  and four scalars; both programs compute, patient by patient, the thirteen rates of change of the state.

  The kernel walks the cohort in 1024 blocks of 1024 patients; in each block it computes thirteen columns, one per
  rate, entry by entry, and joins them. The reference does the same over the whole cohort at once. Over the extended
  reals the two differ in one thing only: where the formulas negate, the vector unit subtracts from zero and the host
  negates, and `0 - v = -v` for every extended real `v`. So both result arrays are the same function of the arguments,
  `Cert.Rates.field` (Proof/PatientRates.lean): entry `(r, j)` is rate `j` of patient `r`.

  Proof/BlockRates.lean reads one output block of the kernel as the rates of its patients; Proof/CohortRates.lean
  puts the 1024 blocks together into the result array; Proof/HostProgram.lean lists the reference's operations and
  Proof/HostRun.lean reads its result off them, window by window. No law used
  needs a finite input, so the precondition is never opened. Nothing was rewritten when the kernel was idealized, so
  there is nothing to preserve.
-/
import proofs.«120048_j11373073400313_2_alg».proof.Defs
import proofs.«120048_j11373073400313_2_alg».proof.Proof.Gen.Kernel
import proofs.«120048_j11373073400313_2_alg».proof.Proof.Gen.Kernel.Skeleton
import proofs.«120048_j11373073400313_2_alg».proof.Proof.Gen.Kernel.Launch
import proofs.«120048_j11373073400313_2_alg».proof.Proof.Gen.Kernel.Points
import proofs.«120048_j11373073400313_2_alg».proof.Proof.Gen.Kernel.Frame
import proofs.«120048_j11373073400313_2_alg».proof.Proof.Gen.KernelIdeal
import proofs.«120048_j11373073400313_2_alg».proof.Proof.Gen.KernelIdeal.Skeleton
import proofs.«120048_j11373073400313_2_alg».proof.Proof.Gen.KernelIdeal.Launch
import proofs.«120048_j11373073400313_2_alg».proof.Proof.Gen.KernelIdeal.Points
import proofs.«120048_j11373073400313_2_alg».proof.Proof.Gen.KernelIdeal.Frame
import proofs.«120048_j11373073400313_2_alg».proof.Proof.Gen.ReferenceIdeal
import proofs.«120048_j11373073400313_2_alg».proof.Proof.Gen.Pre_finite_inputs
import proofs.«120048_j11373073400313_2_alg».proof.Proof.Gen.KernelIdeal.Value
import proofs.«120048_j11373073400313_2_alg».proof.Proof.CohortRates
import proofs.«120048_j11373073400313_2_alg».proof.Proof.HostRun
import Idealize.ShloMosaic.Adequacy
import Idealize.ShloMosaic.Init

noncomputable section

namespace Cert.Proof

open Idealize.ShloMosaic Idealize.SL.Sem Cert.Kernel

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Whole.run m ρ)

/-- Both result arrays are the field of rates of the arguments, and the arguments agree. -/
theorem algebraic : Cert.algebraic_KernelIdeal_ReferenceIdeal := by
  intro m ρ m' ρ' _ hagree
  refine ⟨fun c => Cert.KernelIdeal.Whole.cohort m c, Cert.KernelIdeal.Whole.run m ρ, ?_⟩
  refine (θ_run Cert.ReferenceIdeal.defs _ _).mono (fun _ h c => ⟨(h c).1.trans ?_, (h c).2⟩)
    (Cert.ReferenceIdeal.Whole.run m' ρ')
  obtain ⟨e0, e1, e2, e3, e4, e5⟩ := hagree c
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
